-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v237) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x7x7x30 : Shape := ⟨4, ![16384, 7, 7, 30]⟩
abbrev S_ : Shape := ⟨0, ![]⟩

class Facts : Prop where
  bcast_S_S16384x7x7x30 : S_.BroadcastsInDim S16384x7x7x30 (![] : Fin 0 → Fin S16384x7x7x30.rank)
  reducesTo_S16384x7x7x30_S_d0_1_2_3 : S16384x7x7x30.ReducesTo [0, 1, 2, 3] S_
  h_S_ : 0 < S_.numel

variable [Facts]

def fn {F : FTy → Type} [FloatOps F] (main_arg0 : FVec F S16384x7x7x30 .f32) (main_arg1 : FVec F S16384x7x7x30 .f32) : IVec S_ 1 :=
  let main_v0 : FVec F S16384x7x7x30 .f32 := Host.absf main_arg0
  let main_cst : FVec F S_ .f32 := constant S_ .f32 0x7F800000#32
  let main_v1 : FVec F S16384x7x7x30 .f32 := broadcastInDim S16384x7x7x30 ![] bcast_S_S16384x7x7x30 main_cst
  let main_v2 : IVec S16384x7x7x30 1 := cmpf .olt main_v0 main_v1
  let main_c : IVec S_ 1 := constantI S_ 1 1#1
  let main_v3 : IVec S_ 1 := (fun x v => Host.reduce IntOp.andi x v reducesTo_S16384x7x7x30_S_d0_1_2_3 h_S_) main_v2 main_c
  let main_v4 : FVec F S16384x7x7x30 .f32 := Host.absf main_arg1
  let main_cst_0 : FVec F S_ .f32 := constant S_ .f32 0x7F800000#32
  let main_v5 : FVec F S16384x7x7x30 .f32 := broadcastInDim S16384x7x7x30 ![] bcast_S_S16384x7x7x30 main_cst_0
  let main_v6 : IVec S16384x7x7x30 1 := cmpf .olt main_v4 main_v5
  let main_c_1 : IVec S_ 1 := constantI S_ 1 1#1
  let main_v7 : IVec S_ 1 := (fun x v => Host.reduce IntOp.andi x v reducesTo_S16384x7x7x30_S_d0_1_2_3 h_S_) main_v6 main_c_1
  let main_v8 : IVec S_ 1 := andi main_v3 main_v7
  main_v8
-- ==== Kernel.lean ====
abbrev S16384x7x7x30 : Shape := ⟨4, ![16384, 7, 7, 30]⟩
abbrev S802816x30 : Shape := ⟨2, ![802816, 30]⟩
abbrev S2x1x1 : Shape := ⟨3, ![2, 1, 1]⟩
abbrev S4096x30 : Shape := ⟨2, ![4096, 30]⟩
abbrev S1x1x1 : Shape := ⟨3, ![1, 1, 1]⟩
abbrev S4096x1 : Shape := ⟨2, ![4096, 1]⟩
abbrev S4096x4 : Shape := ⟨2, ![4096, 4]⟩
abbrev S4096x2 : Shape := ⟨2, ![4096, 2]⟩
abbrev S4096 : Shape := ⟨1, ![4096]⟩
abbrev S4096x20 : Shape := ⟨2, ![4096, 20]⟩
abbrev S1 : Shape := ⟨1, ![1]⟩
abbrev S1x1 : Shape := ⟨2, ![1, 1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S16384x7x7x30, .f32⟩
  | .hbm, ⟨1, _⟩ => ⟨S16384x7x7x30, .f32⟩
  | .hbm, ⟨2, _⟩ => ⟨S802816x30, .f32⟩
  | .hbm, ⟨3, _⟩ => ⟨S802816x30, .f32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S4096x30, .f32⟩
  | .local _ .vmem, ⟨1, _⟩ => ⟨S4096x30, .f32⟩
  | .local _ .vmem, ⟨2, _⟩ => ⟨S4096x30, .f32⟩
  | .local _ .vmem, ⟨3, _⟩ => ⟨S4096x30, .f32⟩
  | .local _ .vmem, ⟨4, _⟩ => ⟨S1x1x1, .f32⟩
  | .local _ .vmem, ⟨5, _⟩ => ⟨S1x1x1, .f32⟩
  | _, _ => ⟨S16384x7x7x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 98], ![false, false]⟩

def cc0_transform_0 (i : grid0.Coords) : Fin 2 → Nat :=
  let arg0 : BitVec 32 := BitVec.ofNat 32 (i 0).val
  let arg1 : BitVec 32 := BitVec.ofNat 32 (i 1).val
  let c98_i32 : BitVec 32 := 98#32
  let v0 : BitVec 32 := Scalar.muli arg0 c98_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c98_i32 : BitVec 32 := 98#32
  let v0 : BitVec 32 := Scalar.muli arg0 c98_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16384x7x7x30_S802816x30 : S16384x7x7x30.ShapeCasts S802816x30
  inb_S1x1x1_S1x1x1_0_0_0 : ∀ a, (![0, 0, 0] : Fin 3 → Nat) a + S1x1x1.size a ≤ S1x1x1.size a
  h_S1x1x1 : 0 < S1x1x1.numel
  inb_S4096x30_S4096x30_0_0 : ∀ a, (![0, 0] : Fin 2 → Nat) a + S4096x30.size a ≤ S4096x30.size a
  h_S4096x30 : 0 < S4096x30.numel
  shapeCasts_S4096x30_S4096x30 : S4096x30.ShapeCasts S4096x30
  slices_S4096x30_o0_4_S4096x1 : S4096x30.Slices ![0, 4] S4096x1
  natLt_1_32 : 1 < 32
  slices_S4096x30_o0_0_S4096x4 : S4096x30.Slices ![0, 0] S4096x4
  slices_S4096x4_o0_0_S4096x1 : S4096x4.Slices ![0, 0] S4096x1
  slices_S4096x4_o0_2_S4096x1 : S4096x4.Slices ![0, 2] S4096x1
  slices_S4096x4_o0_1_S4096x1 : S4096x4.Slices ![0, 1] S4096x1
  slices_S4096x4_o0_3_S4096x1 : S4096x4.Slices ![0, 3] S4096x1
  slices_S4096x30_o0_5_S4096x4 : S4096x30.Slices ![0, 5] S4096x4
  slices_S4096x30_o0_0_S4096x2 : S4096x30.Slices ![0, 0] S4096x2
  reduces_S4096x2_S4096 : S4096x2.Reduces [1] S4096
  shapeCasts_S4096_S4096x1 : S4096.ShapeCasts S4096x1
  slices_S4096x30_o0_5_S4096x2 : S4096x30.Slices ![0, 5] S4096x2
  slices_S4096x30_o0_2_S4096x2 : S4096x30.Slices ![0, 2] S4096x2
  slices_S4096x30_o0_7_S4096x2 : S4096x30.Slices ![0, 7] S4096x2
  slices_S4096x30_o0_9_S4096x1 : S4096x30.Slices ![0, 9] S4096x1
  slices_S4096x30_o0_10_S4096x20 : S4096x30.Slices ![0, 10] S4096x20
  reduces_S4096x20_S4096 : S4096x20.Reduces [1] S4096
  reduces_S4096x1_S1 : S4096x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x30.size a ≤ S802816x30.size a
  hwx0_0 : ∀ i : grid0.Coords, EltTy.bits .f32 = 32 ∨ (Rect.block (s := S802816x30) S4096x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x30.size a ≤ S802816x30.size a
  hwx0_1 : ∀ i : grid0.Coords, EltTy.bits .f32 = 32 ∨ (Rect.block (s := S802816x30) S4096x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S4096x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x7x7x30 : Shape := ⟨4, ![16384, 7, 7, 30]⟩
abbrev S16384x7x7x1 : Shape := ⟨4, ![16384, 7, 7, 1]⟩
abbrev S16384x7x7 : Shape := ⟨3, ![16384, 7, 7]⟩
abbrev S_ : Shape := ⟨0, ![]⟩
abbrev S16384x7x7x4 : Shape := ⟨4, ![16384, 7, 7, 4]⟩
abbrev S16384x7x7x2 : Shape := ⟨4, ![16384, 7, 7, 2]⟩
abbrev S16384x7x7x20 : Shape := ⟨4, ![16384, 7, 7, 20]⟩

abbrev nBuf : Space → Nat
  | .hbm => 285
  | .vmem => 0
  | .smem => 0
  | _ => 0

abbrev hbmTy0_0 (i : Nat) : BufTy := match i % 128 with
  | 0 => ⟨S16384x7x7x30, .f32⟩
  | 1 => ⟨S16384x7x7x30, .f32⟩
  | 2 => ⟨S16384x7x7x1, .f32⟩
  | 3 => ⟨S16384x7x7, .f32⟩
  | 4 => ⟨S_, .f32⟩
  | 5 => ⟨S16384x7x7, .f32⟩
  | 6 => ⟨S16384x7x7, .i1⟩
  | 7 => ⟨S16384x7x7x4, .f32⟩
  | 8 => ⟨S16384x7x7x4, .f32⟩
  | 9 => ⟨S16384x7x7x1, .f32⟩
  | 10 => ⟨S16384x7x7, .f32⟩
  | 11 => ⟨S16384x7x7x1, .f32⟩
  | 12 => ⟨S16384x7x7, .f32⟩
  | 13 => ⟨S_, .f32⟩
  | 14 => ⟨S16384x7x7, .f32⟩
  | 15 => ⟨S16384x7x7, .f32⟩
  | 16 => ⟨S16384x7x7, .f32⟩
  | 17 => ⟨S16384x7x7x1, .f32⟩
  | 18 => ⟨S16384x7x7, .f32⟩
  | 19 => ⟨S16384x7x7x1, .f32⟩
  | 20 => ⟨S16384x7x7, .f32⟩
  | 21 => ⟨S_, .f32⟩
  | 22 => ⟨S16384x7x7, .f32⟩
  | 23 => ⟨S16384x7x7, .f32⟩
  | 24 => ⟨S16384x7x7, .f32⟩
  | 25 => ⟨S16384x7x7x1, .f32⟩
  | 26 => ⟨S16384x7x7, .f32⟩
  | 27 => ⟨S16384x7x7x1, .f32⟩
  | 28 => ⟨S16384x7x7, .f32⟩
  | 29 => ⟨S_, .f32⟩
  | 30 => ⟨S16384x7x7, .f32⟩
  | 31 => ⟨S16384x7x7, .f32⟩
  | 32 => ⟨S16384x7x7, .f32⟩
  | 33 => ⟨S16384x7x7x1, .f32⟩
  | 34 => ⟨S16384x7x7, .f32⟩
  | 35 => ⟨S16384x7x7x1, .f32⟩
  | 36 => ⟨S16384x7x7, .f32⟩
  | 37 => ⟨S_, .f32⟩
  | 38 => ⟨S16384x7x7, .f32⟩
  | 39 => ⟨S16384x7x7, .f32⟩
  | 40 => ⟨S16384x7x7, .f32⟩
  | 41 => ⟨S16384x7x7x1, .f32⟩
  | 42 => ⟨S16384x7x7, .f32⟩
  | 43 => ⟨S16384x7x7x1, .f32⟩
  | 44 => ⟨S16384x7x7, .f32⟩
  | 45 => ⟨S_, .f32⟩
  | 46 => ⟨S16384x7x7, .f32⟩
  | 47 => ⟨S16384x7x7, .f32⟩
  | 48 => ⟨S16384x7x7, .f32⟩
  | 49 => ⟨S16384x7x7x1, .f32⟩
  | 50 => ⟨S16384x7x7, .f32⟩
  | 51 => ⟨S16384x7x7x1, .f32⟩
  | 52 => ⟨S16384x7x7, .f32⟩
  | 53 => ⟨S_, .f32⟩
  | 54 => ⟨S16384x7x7, .f32⟩
  | 55 => ⟨S16384x7x7, .f32⟩
  | 56 => ⟨S16384x7x7, .f32⟩
  | 57 => ⟨S16384x7x7x1, .f32⟩
  | 58 => ⟨S16384x7x7, .f32⟩
  | 59 => ⟨S16384x7x7x1, .f32⟩
  | 60 => ⟨S16384x7x7, .f32⟩
  | 61 => ⟨S_, .f32⟩
  | 62 => ⟨S16384x7x7, .f32⟩
  | 63 => ⟨S16384x7x7, .f32⟩
  | 64 => ⟨S16384x7x7, .f32⟩
  | 65 => ⟨S16384x7x7x1, .f32⟩
  | 66 => ⟨S16384x7x7, .f32⟩
  | 67 => ⟨S16384x7x7x1, .f32⟩
  | 68 => ⟨S16384x7x7, .f32⟩
  | 69 => ⟨S_, .f32⟩
  | 70 => ⟨S16384x7x7, .f32⟩
  | 71 => ⟨S16384x7x7, .f32⟩
  | 72 => ⟨S16384x7x7, .f32⟩
  | 73 => ⟨S16384x7x7, .f32⟩
  | 74 => ⟨S16384x7x7, .f32⟩
  | 75 => ⟨S16384x7x7, .f32⟩
  | 76 => ⟨S_, .f32⟩
  | 77 => ⟨S_, .f32⟩
  | 78 => ⟨S16384x7x7, .f32⟩
  | 79 => ⟨S16384x7x7, .f32⟩
  | 80 => ⟨S16384x7x7, .f32⟩
  | 81 => ⟨S16384x7x7, .f32⟩
  | 82 => ⟨S16384x7x7, .f32⟩
  | 83 => ⟨S_, .f32⟩
  | 84 => ⟨S_, .f32⟩
  | 85 => ⟨S16384x7x7, .f32⟩
  | 86 => ⟨S16384x7x7, .f32⟩
  | 87 => ⟨S16384x7x7, .f32⟩
  | 88 => ⟨S16384x7x7, .f32⟩
  | 89 => ⟨S16384x7x7, .f32⟩
  | 90 => ⟨S16384x7x7, .f32⟩
  | 91 => ⟨S16384x7x7, .f32⟩
  | 92 => ⟨S16384x7x7, .f32⟩
  | 93 => ⟨S16384x7x7, .f32⟩
  | 94 => ⟨S16384x7x7, .f32⟩
  | 95 => ⟨S16384x7x7, .f32⟩
  | 96 => ⟨S_, .f32⟩
  | 97 => ⟨S16384x7x7, .f32⟩
  | 98 => ⟨S16384x7x7, .f32⟩
  | 99 => ⟨S16384x7x7, .f32⟩
  | 100 => ⟨S16384x7x7x4, .f32⟩
  | 101 => ⟨S16384x7x7x4, .f32⟩
  | 102 => ⟨S16384x7x7x1, .f32⟩
  | 103 => ⟨S16384x7x7, .f32⟩
  | 104 => ⟨S16384x7x7x1, .f32⟩
  | 105 => ⟨S16384x7x7, .f32⟩
  | 106 => ⟨S_, .f32⟩
  | 107 => ⟨S16384x7x7, .f32⟩
  | 108 => ⟨S16384x7x7, .f32⟩
  | 109 => ⟨S16384x7x7, .f32⟩
  | 110 => ⟨S16384x7x7x1, .f32⟩
  | 111 => ⟨S16384x7x7, .f32⟩
  | 112 => ⟨S16384x7x7x1, .f32⟩
  | 113 => ⟨S16384x7x7, .f32⟩
  | 114 => ⟨S_, .f32⟩
  | 115 => ⟨S16384x7x7, .f32⟩
  | 116 => ⟨S16384x7x7, .f32⟩
  | 117 => ⟨S16384x7x7, .f32⟩
  | 118 => ⟨S16384x7x7x1, .f32⟩
  | 119 => ⟨S16384x7x7, .f32⟩
  | 120 => ⟨S16384x7x7x1, .f32⟩
  | 121 => ⟨S16384x7x7, .f32⟩
  | 122 => ⟨S_, .f32⟩
  | 123 => ⟨S16384x7x7, .f32⟩
  | 124 => ⟨S16384x7x7, .f32⟩
  | 125 => ⟨S16384x7x7, .f32⟩
  | 126 => ⟨S16384x7x7x1, .f32⟩
  | 127 => ⟨S16384x7x7, .f32⟩
  | _ => ⟨S16384x7x7x30, .f32⟩

abbrev hbmTy0_1 (i : Nat) : BufTy := match i % 128 with
  | 0 => ⟨S16384x7x7x1, .f32⟩
  | 1 => ⟨S16384x7x7, .f32⟩
  | 2 => ⟨S_, .f32⟩
  | 3 => ⟨S16384x7x7, .f32⟩
  | 4 => ⟨S16384x7x7, .f32⟩
  | 5 => ⟨S16384x7x7, .f32⟩
  | 6 => ⟨S16384x7x7x1, .f32⟩
  | 7 => ⟨S16384x7x7, .f32⟩
  | 8 => ⟨S16384x7x7x1, .f32⟩
  | 9 => ⟨S16384x7x7, .f32⟩
  | 10 => ⟨S_, .f32⟩
  | 11 => ⟨S16384x7x7, .f32⟩
  | 12 => ⟨S16384x7x7, .f32⟩
  | 13 => ⟨S16384x7x7, .f32⟩
  | 14 => ⟨S16384x7x7x1, .f32⟩
  | 15 => ⟨S16384x7x7, .f32⟩
  | 16 => ⟨S16384x7x7x1, .f32⟩
  | 17 => ⟨S16384x7x7, .f32⟩
  | 18 => ⟨S_, .f32⟩
  | 19 => ⟨S16384x7x7, .f32⟩
  | 20 => ⟨S16384x7x7, .f32⟩
  | 21 => ⟨S16384x7x7, .f32⟩
  | 22 => ⟨S16384x7x7x1, .f32⟩
  | 23 => ⟨S16384x7x7, .f32⟩
  | 24 => ⟨S16384x7x7x1, .f32⟩
  | 25 => ⟨S16384x7x7, .f32⟩
  | 26 => ⟨S_, .f32⟩
  | 27 => ⟨S16384x7x7, .f32⟩
  | 28 => ⟨S16384x7x7, .f32⟩
  | 29 => ⟨S16384x7x7, .f32⟩
  | 30 => ⟨S16384x7x7x1, .f32⟩
  | 31 => ⟨S16384x7x7, .f32⟩
  | 32 => ⟨S16384x7x7x1, .f32⟩
  | 33 => ⟨S16384x7x7, .f32⟩
  | 34 => ⟨S_, .f32⟩
  | 35 => ⟨S16384x7x7, .f32⟩
  | 36 => ⟨S16384x7x7, .f32⟩
  | 37 => ⟨S16384x7x7, .f32⟩
  | 38 => ⟨S16384x7x7, .f32⟩
  | 39 => ⟨S16384x7x7, .f32⟩
  | 40 => ⟨S16384x7x7, .f32⟩
  | 41 => ⟨S_, .f32⟩
  | 42 => ⟨S_, .f32⟩
  | 43 => ⟨S16384x7x7, .f32⟩
  | 44 => ⟨S16384x7x7, .f32⟩
  | 45 => ⟨S16384x7x7, .f32⟩
  | 46 => ⟨S16384x7x7, .f32⟩
  | 47 => ⟨S16384x7x7, .f32⟩
  | 48 => ⟨S_, .f32⟩
  | 49 => ⟨S_, .f32⟩
  | 50 => ⟨S16384x7x7, .f32⟩
  | 51 => ⟨S16384x7x7, .f32⟩
  | 52 => ⟨S16384x7x7, .f32⟩
  | 53 => ⟨S16384x7x7, .f32⟩
  | 54 => ⟨S16384x7x7, .f32⟩
  | 55 => ⟨S16384x7x7, .f32⟩
  | 56 => ⟨S16384x7x7, .f32⟩
  | 57 => ⟨S16384x7x7, .f32⟩
  | 58 => ⟨S16384x7x7, .f32⟩
  | 59 => ⟨S16384x7x7, .f32⟩
  | 60 => ⟨S16384x7x7, .f32⟩
  | 61 => ⟨S_, .f32⟩
  | 62 => ⟨S16384x7x7, .f32⟩
  | 63 => ⟨S16384x7x7, .f32⟩
  | 64 => ⟨S16384x7x7, .f32⟩
  | 65 => ⟨S16384x7x7, .i1⟩
  | 66 => ⟨S16384x7x7x2, .f32⟩
  | 67 => ⟨S16384x7x7x2, .f32⟩
  | 68 => ⟨S16384x7x7x2, .f32⟩
  | 69 => ⟨S16384x7x7x2, .f32⟩
  | 70 => ⟨S_, .f32⟩
  | 71 => ⟨S16384x7x7, .f32⟩
  | 72 => ⟨S16384x7x7x2, .f32⟩
  | 73 => ⟨S16384x7x7x2, .f32⟩
  | 74 => ⟨S16384x7x7x2, .f32⟩
  | 75 => ⟨S16384x7x7x2, .f32⟩
  | 76 => ⟨S_, .f32⟩
  | 77 => ⟨S16384x7x7, .f32⟩
  | 78 => ⟨S16384x7x7x2, .f32⟩
  | 79 => ⟨S16384x7x7x2, .f32⟩
  | 80 => ⟨S16384x7x7x2, .f32⟩
  | 81 => ⟨S16384x7x7x2, .f32⟩
  | 82 => ⟨S16384x7x7x2, .f32⟩
  | 83 => ⟨S16384x7x7x2, .f32⟩
  | 84 => ⟨S_, .f32⟩
  | 85 => ⟨S16384x7x7, .f32⟩
  | 86 => ⟨S16384x7x7x2, .f32⟩
  | 87 => ⟨S16384x7x7x2, .f32⟩
  | 88 => ⟨S16384x7x7x2, .f32⟩
  | 89 => ⟨S16384x7x7x2, .f32⟩
  | 90 => ⟨S16384x7x7x2, .f32⟩
  | 91 => ⟨S16384x7x7x2, .f32⟩
  | 92 => ⟨S_, .f32⟩
  | 93 => ⟨S16384x7x7, .f32⟩
  | 94 => ⟨S16384x7x7x1, .f32⟩
  | 95 => ⟨S16384x7x7, .f32⟩
  | 96 => ⟨S16384x7x7x1, .f32⟩
  | 97 => ⟨S16384x7x7, .f32⟩
  | 98 => ⟨S16384x7x7, .f32⟩
  | 99 => ⟨S16384x7x7, .f32⟩
  | 100 => ⟨S16384x7x7x1, .f32⟩
  | 101 => ⟨S16384x7x7, .f32⟩
  | 102 => ⟨S16384x7x7x1, .f32⟩
  | 103 => ⟨S16384x7x7, .f32⟩
  | 104 => ⟨S16384x7x7, .f32⟩
  | 105 => ⟨S16384x7x7, .f32⟩
  | 106 => ⟨S16384x7x7x1, .f32⟩
  | 107 => ⟨S16384x7x7, .f32⟩
  | 108 => ⟨S16384x7x7, .f32⟩
  | 109 => ⟨S16384x7x7x1, .f32⟩
  | 110 => ⟨S16384x7x7, .f32⟩
  | 111 => ⟨S16384x7x7, .f32⟩
  | 112 => ⟨S16384x7x7, .f32⟩
  | 113 => ⟨S16384x7x7, .f32⟩
  | 114 => ⟨S16384x7x7, .f32⟩
  | 115 => ⟨S_, .f32⟩
  | 116 => ⟨S_, .f32⟩
  | 117 => ⟨S_, .f32⟩
  | 118 => ⟨S_, .f32⟩
  | 119 => ⟨S16384x7x7, .f32⟩
  | 120 => ⟨S16384x7x7, .f32⟩
  | 121 => ⟨S_, .f32⟩
  | 122 => ⟨S_, .f32⟩
  | 123 => ⟨S_, .f32⟩
  | 124 => ⟨S_, .f32⟩
  | 125 => ⟨S16384x7x7, .f32⟩
  | 126 => ⟨S16384x7x7, .f32⟩
  | 127 => ⟨S_, .f32⟩
  | _ => ⟨S16384x7x7x30, .f32⟩

abbrev hbmTy0_2 (i : Nat) : BufTy := match i % 128 with
  | 0 => ⟨S_, .f32⟩
  | 1 => ⟨S16384x7x7, .f32⟩
  | 2 => ⟨S16384x7x7x1, .f32⟩
  | 3 => ⟨S16384x7x7, .f32⟩
  | 4 => ⟨S16384x7x7, .f32⟩
  | 5 => ⟨S16384x7x7x1, .f32⟩
  | 6 => ⟨S16384x7x7, .f32⟩
  | 7 => ⟨S16384x7x7, .f32⟩
  | 8 => ⟨S16384x7x7, .f32⟩
  | 9 => ⟨S16384x7x7, .f32⟩
  | 10 => ⟨S_, .f32⟩
  | 11 => ⟨S_, .f32⟩
  | 12 => ⟨S_, .f32⟩
  | 13 => ⟨S_, .f32⟩
  | 14 => ⟨S16384x7x7x20, .f32⟩
  | 15 => ⟨S16384x7x7x20, .f32⟩
  | 16 => ⟨S16384x7x7x20, .f32⟩
  | 17 => ⟨S16384x7x7x20, .f32⟩
  | 18 => ⟨S_, .f32⟩
  | 19 => ⟨S16384x7x7, .f32⟩
  | 20 => ⟨S16384x7x7, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | _ => ⟨S16384x7x7x30, .f32⟩

abbrev hbmTy (i : Nat) : BufTy := match i / 128 with
  | 0 => hbmTy0_0 i
  | 1 => hbmTy0_1 i
  | 2 => hbmTy0_2 i
  | _ => ⟨S16384x7x7x30, .f32⟩

abbrev bufTy : (tb : Table) → Fin (tcTables nBuf tb) → BufTy
  | .hbm, ⟨i, _⟩ => hbmTy i
  | _, _ => ⟨S16384x7x7x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_3 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_4 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_5 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_6 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_7 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_8 : Ref sig .tc := ⟨.hbm, 76, rfl⟩
abbrev main_call0_v0 : Ref sig .tc := ⟨.hbm, 77, rfl⟩
abbrev main_call0_v1 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_9 : Ref sig .tc := ⟨.hbm, 83, rfl⟩
abbrev main_call1_v0 : Ref sig .tc := ⟨.hbm, 84, rfl⟩
abbrev main_call1_v1 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_10 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_11 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_cst_12 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_cst_13 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_cst_14 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_cst_15 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_cst_16 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_cst_17 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_cst_18 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_cst_19 : Ref sig .tc := ⟨.hbm, 169, rfl⟩
abbrev main_call2_v0 : Ref sig .tc := ⟨.hbm, 170, rfl⟩
abbrev main_call2_v1 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_cst_20 : Ref sig .tc := ⟨.hbm, 176, rfl⟩
abbrev main_call3_v0 : Ref sig .tc := ⟨.hbm, 177, rfl⟩
abbrev main_call3_v1 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_cst_21 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_cst_22 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_cst_23 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_cst_24 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_cst_25 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_cst_26 : Ref sig .tc := ⟨.hbm, 243, rfl⟩
abbrev main_v206 : Ref sig .tc := ⟨.hbm, 244, rfl⟩
abbrev main_cst_27 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_cst_28 : Ref sig .tc := ⟨.hbm, 249, rfl⟩
abbrev main_v210 : Ref sig .tc := ⟨.hbm, 250, rfl⟩
abbrev main_cst_29 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_cst_30 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_cst_31 : Ref sig .tc := ⟨.hbm, 266, rfl⟩
abbrev main_v224 : Ref sig .tc := ⟨.hbm, 267, rfl⟩
abbrev main_cst_32 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_cst_33 : Ref sig .tc := ⟨.hbm, 274, rfl⟩
abbrev main_v230 : Ref sig .tc := ⟨.hbm, 275, rfl⟩
abbrev main_v231 : Ref sig .tc := ⟨.hbm, 276, rfl⟩
abbrev main_cst_34 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_cst_35 : Ref sig .tc := ⟨.hbm, 283, rfl⟩
abbrev main_v237 : Ref sig .tc := ⟨.hbm, 284, rfl⟩

abbrev nD : Nat := 1
abbrev τ : Topo := Topo.v7x

variable {F : FTy → Type} [FloatOps F]

class Facts₀ : Prop where
  slices_S16384x7x7x30_S16384x7x7x1_0_0_0_4 : S16384x7x7x30.Slices ![0, 0, 0, 4] S16384x7x7x1
  shapeCasts_S16384x7x7x1_S16384x7x7 : S16384x7x7x1.ShapeCasts S16384x7x7
  bcast_S_S16384x7x7 : S_.BroadcastsInDim S16384x7x7 (![] : Fin 0 → Fin S16384x7x7.rank)
  slices_S16384x7x7x30_S16384x7x7x4_0_0_0_0 : S16384x7x7x30.Slices ![0, 0, 0, 0] S16384x7x7x4
  slices_S16384x7x7x4_S16384x7x7x1_0_0_0_0 : S16384x7x7x4.Slices ![0, 0, 0, 0] S16384x7x7x1
  slices_S16384x7x7x4_S16384x7x7x1_0_0_0_2 : S16384x7x7x4.Slices ![0, 0, 0, 2] S16384x7x7x1
  slices_S16384x7x7x4_S16384x7x7x1_0_0_0_1 : S16384x7x7x4.Slices ![0, 0, 0, 1] S16384x7x7x1
  slices_S16384x7x7x4_S16384x7x7x1_0_0_0_3 : S16384x7x7x4.Slices ![0, 0, 0, 3] S16384x7x7x1
  slices_S16384x7x7x30_S16384x7x7x4_0_0_0_5 : S16384x7x7x30.Slices ![0, 0, 0, 5] S16384x7x7x4
  slices_S16384x7x7x30_S16384x7x7x2_0_0_0_0 : S16384x7x7x30.Slices ![0, 0, 0, 0] S16384x7x7x2
  reducesTo_S16384x7x7x2_S16384x7x7_d3 : S16384x7x7x2.ReducesTo [3] S16384x7x7
  h_S_ : 0 < S_.numel
  slices_S16384x7x7x30_S16384x7x7x2_0_0_0_5 : S16384x7x7x30.Slices ![0, 0, 0, 5] S16384x7x7x2
  slices_S16384x7x7x30_S16384x7x7x2_0_0_0_2 : S16384x7x7x30.Slices ![0, 0, 0, 2] S16384x7x7x2
  slices_S16384x7x7x30_S16384x7x7x2_0_0_0_7 : S16384x7x7x30.Slices ![0, 0, 0, 7] S16384x7x7x2
  slices_S16384x7x7x30_S16384x7x7x1_0_0_0_9 : S16384x7x7x30.Slices ![0, 0, 0, 9] S16384x7x7x1
  reducesTo_S16384x7x7_S_d0_1_2 : S16384x7x7.ReducesTo [0, 1, 2] S_
  slices_S16384x7x7x30_S16384x7x7x20_0_0_0_10 : S16384x7x7x30.Slices ![0, 0, 0, 10] S16384x7x7x20
  reducesTo_S16384x7x7x20_S16384x7x7_d3 : S16384x7x7x20.ReducesTo [3] S16384x7x7

variable [Facts₀]

class Facts : Prop extends Facts₀ where

variable [Facts]
-- ==== Proof.KernelStored.lean ====
/-
  What one grid step stores into the accumulator block, as one term of its two row blocks.

  The body's arithmetic, from the two loaded blocks `x0` (predictions) and `x1` (labels) to the value it stores, with
  the accumulator's contents `acc` a third argument: the generated payload functions composed as the body composes them.
-/
import proofs.«181994_j63677185130639_2_alg».proof.Proof.Gen.KernelIdeal.Skeleton
import Idealize.ShloMosaic.Lib.Pipeline.Value

noncomputable section

open Idealize.ShloMosaic

namespace Cert.KernelIdeal.Cases

open Cert.KernelIdeal Cert.KernelIdeal.Gen

variable {F : FTy → Type} [FloatOps F]

/-- Which of a cell's two predicted boxes is the responsible one, for the 4096 cells of a step, from the two blocks. -/
def firstBox (x0 x1 : Vec F S4096x30 .f32) : IVec S4096x1 1 :=
  k0_pay23 (k0_pay7 x1)
    (k0_pay15 (k0_pay7 x1) (k0_pay9 x0) (k0_pay10 x0) (k0_pay11 x0) (k0_pay12 x0) (k0_pay13 x1) (k0_pay14 x1))
    (k0_pay17 (k0_pay3 x0)) (k0_pay18 (k0_pay3 x0)) (k0_pay19 (k0_pay3 x0)) (k0_pay20 (k0_pay3 x0))
    (k0_pay21 (k0_pay3 x0)) k0_pay22

/-- What a step stores into the accumulator block: the accumulator's contents plus the sum of the step's 4096 cell totals,
    as the body's own term of the two blocks. -/
def stored (x0 x1 : Vec F S4096x30 .f32) (acc : Vec F S1x1x1 .f32) : FVec F S1x1x1 .f32 :=
  k0_pay1 (k0_pay6 x1)
    (k0_pay26 (k0_pay3 x0) (k0_pay6 x1) (firstBox x0 x1) (k0_pay24 (k0_pay3 x0) (k0_pay4 x1)) (k0_pay25 (k0_pay4 x1)))
    (k0_pay27 (k0_pay3 x0) (k0_pay4 x1) (k0_pay6 x1) (firstBox x0 x1))
    (k0_pay28 (k0_pay3 x0) (k0_pay4 x1) (k0_pay6 x1) (firstBox x0 x1))
    (k0_pay29 (k0_pay3 x0) (k0_pay5 x1) (firstBox x0 x1))
    (k0_pay30 (k0_pay4 x1)) (k0_pay31 (k0_pay3 x0)) acc

/-- The step's 4096 cell totals, as a column: the four weighted terms and the gated class term (a lane sum over the
    twenty class columns), added in the body's order. -/
def cellColumn (x0 x1 : Vec F S4096x30 .f32) : FVec F S4096x1 .f32 :=
  addf (addf (addf (addf (k0_pay26 x0 (k0_pay6 x1) (firstBox x0 x1) (k0_pay24 x0 x1) (k0_pay25 x1))
      (k0_pay27 x0 x1 (k0_pay6 x1) (firstBox x0 x1))) (k0_pay28 x0 x1 (k0_pay6 x1) (firstBox x0 x1)))
      (k0_pay29 x0 (k0_pay5 x1) (firstBox x0 x1)))
    (mulf (k0_pay6 x1)
      (shapeCast S4096x1
        (multiReduction .add [1] S4096 (mulf (subf (k0_pay30 x1) (k0_pay31 x0)) (subf (k0_pay30 x1) (k0_pay31 x0)))
          0x00000000#32 reduces_S4096x20_S4096 (.inl rfl) rfl) shapeCasts_S4096_S4096x1))

/-- The loaded blocks' identity casts: the value the body works with is the loaded block itself. -/
theorem pay3_eq (x : Vec F S4096x30 .f32) : k0_pay3 x = x := by
  unfold k0_pay3; exact shapeCast_self _ _
theorem pay4_eq (x : Vec F S4096x30 .f32) : k0_pay4 x = x := by
  unfold k0_pay4; exact shapeCast_self _ _

/-- The stored value is the accumulator plus the column of cell totals summed over its rows (through the casts of the
    one-element sum to the accumulator's shape). -/
theorem stored_eq (x0 x1 : Vec F S4096x30 .f32) (acc : Vec F S1x1x1 .f32) :
    stored x0 x1 acc
      = addf acc (shapeCast S1x1x1 (shapeCast S1x1
          (multiReduction .add [0] S1 (cellColumn x0 x1) 0x00000000#32 reduces_S4096x1_S1 (.inl rfl) rfl)
          shapeCasts_S1_S1x1) shapeCasts_S1x1_S1x1x1) := by
  simp only [stored, pay3_eq, pay4_eq, k0_pay1, shapeCast_self, cellColumn]

end Cert.KernelIdeal.Cases

end
-- ==== Proof.KernelCases.lean ====
/-
  What one grid step leaves in the accumulator block, as a value.

  The body loads its two row blocks `x0` (predictions) and `x1` (labels), computes from them the 4096 cells' totals and
  their sum, adds that sum to what the one-element accumulator block holds, and stores the result back. On a core's first
  step it has stored a zero into the accumulator just before, so what it adds to is that zero; on every other step it is
  what the previous step left. Here the two cases' stored pieces are read back as that one term, `stored x0 x1 acc`, of the
  blocks and the accumulator's contents.
-/
import proofs.«181994_j63677185130639_2_alg».proof.Proof.Gen.KernelIdeal.Frame
import proofs.«181994_j63677185130639_2_alg».proof.Proof.KernelStored
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later step of a core (the accumulator holds `acc`, what the step before left): the one store's payload. -/
theorem out_B (c : Dev nD) (i : grid0.Coords) (a2 : Memref sig .tc .vmem S4096x30 .f32) (h2 : a2.IsWhole)
    (a3 : Memref sig .tc .vmem S4096x30 .f32) (h3 : a3.IsWhole) (a4 : Memref sig .tc .vmem S1x1x1 .f32) (h4 : a4.IsWhole)
    (hc : ¬cond0_0 i) (x0 x1 : Vec F S4096x30 .f32) (acc : Vec F S1x1x1 .f32) :
    out0_B_2 c i a2 h2 a3 h3 a4 h4 hc x0 x1 acc = stored x0 x1 acc := by
  unfold out0_B_2
  rw [View.read_writes_eq_canon _ _ _ (cover0_B_2 c i a2 h2 a3 h3 a4 h4 hc x0 x1 acc)]
  unfold kernelRun0_B
  dsimp only
  sl_unfold_words
  rw [View.canon_unit_zero hz3]
  simp only [View.readAt_eq_ld, h2.read_unread, h3.read_unread, h4.read_unread, View.ld_unit_zero (S := S1x1x1) hz3,
    View.ld_unit_zero (S := S4096x30) hz2]
  rfl

/-- A core's first step: the zero block is stored first, and the accumulation reads it back. -/
theorem out_A (c : Dev nD) (i : grid0.Coords) (a2 : Memref sig .tc .vmem S4096x30 .f32) (h2 : a2.IsWhole)
    (a3 : Memref sig .tc .vmem S4096x30 .f32) (h3 : a3.IsWhole) (a4 : Memref sig .tc .vmem S1x1x1 .f32) (h4 : a4.IsWhole)
    (hc : cond0_0 i) (x0 x1 : Vec F S4096x30 .f32) :
    out0_A_2 c i a2 h2 a3 h3 a4 h4 hc x0 x1 = stored x0 x1 k0_pay2 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, View.ld_unit_zero (S := S1x1x1) hz3,
    View.ld_unit_zero (S := S4096x30) hz2]
  rfl

end Cert.KernelIdeal.Cases

end
-- ==== Proof.RowSpec.lean ====
/-
  The loss of one grid cell as a function of its two rows of thirty numbers, on the extended reals.

  A cell has a row `p` of predictions and a row `l` of labels: two boxes (columns 0–3 and 5–8: centre x, y, width,
  height), their confidences (columns 4 and 9) and twenty class scores (columns 10–29). The label's column 4 says whether
  the cell holds an object. The box whose overlap ratio with the label's box is larger is the responsible one; the cell's
  terms are the squared errors of the responsible box's centre, of the square roots of its size, of its confidence, the
  no-object penalty, and the squared error of the class scores.

  Everything here is a plain scalar expression in the order the programs compute it; float constants stay the words the
  programs spell.
-/
import Idealize.ShloMosaic.PureOps.Ideal
import Idealize.ShloMosaic.Lib.ValueIdx

noncomputable section

namespace Cert.RowSpec

open Idealize.ShloMosaic

/-- Column `c + k` of a row of thirty, for `k` below `n` and `c + n ≤ 30`. -/
def col (c : ℕ) {n : ℕ} (k : Fin n) (h : c + n ≤ 30) : Fin 30 := ⟨c + k.val, by omega⟩

/-- The overlap ratio (intersection over union, the union padded by 1e-10) of two boxes given by centre and size; a half
    size is the size times one half. -/
def iou (a0 a1 a2 a3 b0 b1 b2 b3 : EReal) : EReal :=
  Ideal.div
    (max (Ideal.ofBits .f32 0x00000000#32)
        (min (a0 + a2 * Ideal.ofBits .f32 0x3F000000#32) (b0 + b2 * Ideal.ofBits .f32 0x3F000000#32)
          - max (a0 - a2 * Ideal.ofBits .f32 0x3F000000#32) (b0 - b2 * Ideal.ofBits .f32 0x3F000000#32))
      * max (Ideal.ofBits .f32 0x00000000#32)
        (min (a1 + a3 * Ideal.ofBits .f32 0x3F000000#32) (b1 + b3 * Ideal.ofBits .f32 0x3F000000#32)
          - max (a1 - a3 * Ideal.ofBits .f32 0x3F000000#32) (b1 - b3 * Ideal.ofBits .f32 0x3F000000#32)))
    (((a0 + a2 * Ideal.ofBits .f32 0x3F000000#32 - (a0 - a2 * Ideal.ofBits .f32 0x3F000000#32))
          * (a1 + a3 * Ideal.ofBits .f32 0x3F000000#32 - (a1 - a3 * Ideal.ofBits .f32 0x3F000000#32))
        + (b0 + b2 * Ideal.ofBits .f32 0x3F000000#32 - (b0 - b2 * Ideal.ofBits .f32 0x3F000000#32))
          * (b1 + b3 * Ideal.ofBits .f32 0x3F000000#32 - (b1 - b3 * Ideal.ofBits .f32 0x3F000000#32))
        - max (Ideal.ofBits .f32 0x00000000#32)
            (min (a0 + a2 * Ideal.ofBits .f32 0x3F000000#32) (b0 + b2 * Ideal.ofBits .f32 0x3F000000#32)
              - max (a0 - a2 * Ideal.ofBits .f32 0x3F000000#32) (b0 - b2 * Ideal.ofBits .f32 0x3F000000#32))
          * max (Ideal.ofBits .f32 0x00000000#32)
            (min (a1 + a3 * Ideal.ofBits .f32 0x3F000000#32) (b1 + b3 * Ideal.ofBits .f32 0x3F000000#32)
              - max (a1 - a3 * Ideal.ofBits .f32 0x3F000000#32) (b1 - b3 * Ideal.ofBits .f32 0x3F000000#32)))
      + Ideal.ofBits .f32 0x2EDBE6FF#32)

variable (p l : Fin 30 → EReal)

/-- Whether the cell holds an object: the label's column 4 is exactly one. -/
def objBit : BitVec 1 := Ideal.cmp .oeq (l 4) (Ideal.ofBits .f32 0x3F800000#32)

/-- The object indicator as a number, zero or one. -/
def obj : EReal := (((objBit l).toNat : ℝ) : EReal)

/-- Whether the first predicted box is the responsible one: its overlap with the label's box is the larger. -/
def first : BitVec 1 :=
  Ideal.cmp .ogt (iou (p 0) (p 1) (p 2) (p 3) (l 0) (l 1) (l 2) (l 3)) (iou (p 5) (p 6) (p 7) (p 8) (l 0) (l 1) (l 2) (l 3))

/-- The squared error of a box's centre, the box starting at column `c`. -/
def centreErr (c : ℕ) (h : c + 2 ≤ 30) : EReal :=
  ∑ k : Fin 2, (l (col c k h) - p (col c k h)) * (l (col c k h) - p (col c k h))

/-- The squared error of the square roots of a box's size, the size starting at column `c`. -/
def sizeErr (c : ℕ) (h : c + 2 ≤ 30) : EReal :=
  ∑ k : Fin 2, (Ideal.sqrt (l (col c k h)) - Ideal.sqrt (p (col c k h))) * (Ideal.sqrt (l (col c k h)) - Ideal.sqrt (p (col c k h)))

/-- The centre term of the responsible box. -/
def xyTerm : EReal := Scalar.select (first p l) (centreErr p l 0 (by omega)) (centreErr p l 5 (by omega))

/-- The size term of the responsible box. -/
def whTerm : EReal := Scalar.select (first p l) (sizeErr p l 2 (by omega)) (sizeErr p l 7 (by omega))

/-- The confidence term of the responsible box. -/
def confTerm : EReal := Scalar.select (first p l) ((l 4 - p 4) * (l 4 - p 4)) ((l 9 - p 9) * (l 9 - p 9))

/-- The no-object term: with an object the other box's squared confidence, without one both. -/
def noobjTerm : EReal :=
  Scalar.select (objBit l) (Scalar.select (first p l) (p 9 * p 9) (p 4 * p 4)) (p 4 * p 4 + p 9 * p 9)

/-- The class term: the squared error of the twenty class scores. -/
def classTerm : EReal :=
  ∑ k : Fin 20, (l (col 10 k (by omega)) - p (col 10 k (by omega))) * (l (col 10 k (by omega)) - p (col 10 k (by omega)))

/-- The cell's total as the kernel adds it up: the weights 5 and 1/2 applied cell by cell. -/
def cellTotal : EReal :=
  ((((Ideal.ofBits .f32 0x40A00000#32 * obj l) * xyTerm p l + (Ideal.ofBits .f32 0x40A00000#32 * obj l) * whTerm p l)
      + obj l * confTerm p l) + Ideal.ofBits .f32 0x3F000000#32 * noobjTerm p l) + obj l * classTerm p l

end Cert.RowSpec

end
-- ==== Proof.LibColumnLayout.lean ====
/-
  Two layout operations on a column, read at an index: the forms a row sum kept as a column goes through before it meets a
  full matrix. (The library has the row forms `[a] → [1, a]` and `[1, b] → [a, b]`; these are their column counterparts.)
  Library imports only.
-/
import Idealize.ShloMosaic.Lib.ValueIdx
import Idealize.ShloMosaic.Lib.ValueLayout
import Idealize.ShloMosaic.Lib.Pipeline.Value

namespace Cert.LibColumnLayout

open Idealize.ShloMosaic Idealize.ShloMosaic.ValueIdx

/-- An `[a]` array cast to `[a, 1]` reads, at `(i, u)`, the operand at `i`, whatever the unit coordinate `u`: both indices
    have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`, whatever `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnLayout
-- ==== Proof.LibRowReduce.lean ====
/-
  Reductions over the LAST axis, read at coordinates.

  A matrix `[a, b]` reduced over its lane axis gives, at row `r`, the sum / the fold of `max` / the fold of `min` over
  `k : Fin b` of the entry `(r, k)`; a rank-3 array `[n0, n1, n2]` reduced on the host over its last axis gives, at
  `(i, j)`, the fold of the reduce's body from the initial value over `k : Fin n2` of the entry `(i, j, k)`. The library
  states these over the reduced index with the coordinate re-inserted (`Shape.Reduces.lift`); here the re-inserted
  index is written by its coordinates, so that both readings of one row meet as folds of one function on `Fin b`.
  Library imports only.
-/
import Idealize.ShloMosaic.PureOps.Ideal.Laws
import Idealize.ShloMosaic.Lib.ValueIdx

noncomputable section

namespace Cert.LibRowReduce

open Idealize.ShloMosaic Idealize.ShloMosaic.ValueIdx

variable {φ : FTy}

/-- Row `r` with lane `k` put back is the entry `(r, k)`. -/
theorem lift_row {a b : ℕ} (h : (⟨2, ![a, b]⟩ : Shape).Reduces [1] ⟨1, ![a]⟩) (r : Fin a) (k : Fin b) :
    h.lift (ix1 r) k = ix2 r k := by
  funext c; apply Fin.ext
  fin_cases c <;> rfl

/-- A lane sum of a matrix at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A lane maximum of a matrix at row `r`: the fold of `max` from the accumulator's value over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) fun k => src (ix2 r k) :=
  (Ideal.multiReduction_maximumf_single src acc h hφ hacc (ix1 r)).trans
    (congrArg (fun f => Finset.fold max (Ideal.ofBits φ acc) f (Finset.univ : Finset (Fin b)))
      (funext fun k => congrArg src (lift_row h r k)))

/-- A lane minimum of a matrix at row `r`: the fold of `min` from the accumulator's value over the row's entries. -/
theorem multiReduction_min_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) fun k => src (ix2 r k) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- Index `(i, j)` with the last coordinate `k` put back is the entry `(i, j, k)`. -/
theorem lift_last3 {n0 n1 n2 : ℕ} (h : (⟨3, ![n0, n1, n2]⟩ : Shape).Reduces [2] ⟨2, ![n0, n1]⟩) (i : Fin n0) (j : Fin n1)
    (k : Fin n2) : h.lift (ix2 i j) k = ix3 i j k := by
  funext c; apply Fin.ext
  fin_cases c <;> rfl

/-- The host's reduce of a rank-3 array over its last axis by a commutative, associative body, at `(i, j)`: the fold from
    the initial value over the entries `(i, j, k)`. -/
theorem hostReduce_last3 {α : Type} {n0 n1 n2 : ℕ} {u : Shape} (f : α → α → α) [Std.Commutative f] [Std.Associative f]
    (x : (⟨3, ![n0, n1, n2]⟩ : Shape).Idx → α) (init : u.Idx → α)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (i : Fin n0) (j : Fin n1) :
    Host.reduce f x init h' hu (ix2 i j)
      = (Finset.univ : Finset (Fin n2)).fold f (init (Shape.Idx.first hu)) fun k => x (ix3 i j k) :=
  (Host.reduce_eq_fold_single f x init h' h hu (ix2 i j)).trans
    (congrArg (fun g => Finset.fold f (init (Shape.Idx.first hu)) g (Finset.univ : Finset (Fin n2)))
      (funext fun k => congrArg x (lift_last3 h i j k)))

/-- The host's float sum of a rank-3 array over its last axis, at `(i, j)`: the initial value plus the entries' sum. -/
theorem hostReduceAdd_last3 {n0 n1 n2 : ℕ} (x : (⟨3, ![n0, n1, n2]⟩ : Shape).Idx → EReal) (init : EReal)
    (h' : (⟨3, ![n0, n1, n2]⟩ : Shape).ReducesTo [2] ⟨2, ![n0, n1]⟩) (h : (⟨3, ![n0, n1, n2]⟩ : Shape).Reduces [2] ⟨2, ![n0, n1]⟩)
    (i : Fin n0) (j : Fin n1) :
    Ideal.hostReduceAdd h' x init (ix2 i j) = init + ∑ k : Fin n2, x (ix3 i j k) :=
  (Ideal.hostReduceAdd_single h' h x init (ix2 i j)).trans
    (congrArg (init + ·) (Finset.sum_congr rfl fun k _ => congrArg x (lift_last3 h i j k)))

end Cert.LibRowReduce

end
-- ==== Proof.KernelCell.lean ====
/-
  One grid step's stored value, on the extended reals: the accumulator plus the sum of the step's 4096 cell totals.

  Row `r` of the two blocks is one grid cell: thirty predictions and thirty labels. Every quantity the body computes for
  the cells is a column `[4096, 1]` whose entry `r` depends on row `r` alone, so each is read at `(r, 0)` as the scalar
  expression of that row (module RowSpec): the slices of the thirty columns by their offsets, the lane sums over two or
  twenty columns as finite sums, everything else entry by entry. The sum over the rows and the three casts of the
  one-element result then give the stored value at its one index.
-/
import proofs.«181994_j63677185130639_2_alg».proof.Proof.KernelStored
import proofs.«181994_j63677185130639_2_alg».proof.Proof.RowSpec
import proofs.«181994_j63677185130639_2_alg».proof.Proof.LibColumnLayout
import proofs.«181994_j63677185130639_2_alg».proof.Proof.LibRowReduce
import Idealize.ShloMosaic.Lib.ValueLayout
import Idealize.ShloMosaic.PureOps.Ideal.Laws

noncomputable section

open Idealize.ShloMosaic Idealize.ShloMosaic.ValueIdx

namespace Cert.KernelIdeal.Cell

open Cert.KernelIdeal Cert.KernelIdeal.Gen Cert.KernelIdeal.Cases Cert

/-- Row `r` of a block: one cell's thirty numbers. -/
def rowOf (x : Vec Ideal S4096x30 .f32) (r : Fin 4096) : Fin 30 → EReal := fun k => x (ix2 r k)

/-- A square root taken entry by entry. -/
theorem sqrt_apply {s : Shape} (v : FVec Ideal s .f32) (i : s.Idx) : sqrt v i = Ideal.sqrt (v i) := rfl

/-- A one-bit word widened to 32 bits and read as a signed integer is the bit, zero or one. -/
theorem bit_toInt (b : BitVec 1) : (((b.setWidth 32).toInt : ℝ) : EReal) = ((b.toNat : ℝ) : EReal) := by
  by_cases h : b = 1#1
  · subst h
    have e1 : (BitVec.setWidth 32 (1#1 : BitVec 1)).toInt = 1 := by decide
    have e2 : (1#1 : BitVec 1).toNat = 1 := by decide
    rw [e1, e2, Int.cast_one, Nat.cast_one]
  · have h0 := eq_zero_of_ne_one h
    subst h0
    have e1 : (BitVec.setWidth 32 (0#1 : BitVec 1)).toInt = 0 := by decide
    have e2 : (0#1 : BitVec 1).toNat = 0 := by decide
    rw [e1, e2, Int.cast_zero, Nat.cast_zero]

/-- Row `r` put back into the one index of a column's row sum is the entry `(r, 0)`. -/
theorem lift_col {a : ℕ} (h : (⟨2, ![a, 1]⟩ : Shape).Reduces [0] ⟨1, ![1]⟩) (u : Fin 1) (r : Fin a) :
    h.lift (ix1 u) r = ix2 r (0 : Fin 1) := by
  funext c; apply Fin.ext
  fin_cases c
  · rfl
  · show (u : ℕ) = 0
    omega

/-- The sum of a column over its rows, started from the zero word: the sum of its entries `(r, 0)`. -/
theorem colSum {a : ℕ} (src : FVec Ideal ⟨2, ![a, 1]⟩ .f32)
    (h : (⟨2, ![a, 1]⟩ : Shape).Reduces [0] ⟨1, ![1]⟩) (hφ : FKind.Formats .f32)
    (hacc : (0x00000000#32 : BitVec 32) = 0x00000000#32) (u : Fin 1) :
    multiReduction .add [0] ⟨1, ![1]⟩ src 0x00000000#32 h hφ hacc (ix1 u) = ∑ r : Fin a, src (ix2 r (0 : Fin 1)) :=
  (Ideal.multiReduction_add_single src 0x00000000#32 h hφ hacc (ix1 u)).trans
    (Finset.sum_congr rfl fun r _ => congrArg src (lift_col h u r))

/-- The sum of a row's lanes, from the zero word. -/
theorem laneSum {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin b, src (ix2 r k) :=
  LibRowReduce.multiReduction_add_row src 0x00000000#32 h hφ hacc r

variable (x0 x1 : Vec Ideal S4096x30 .f32) (r : Fin 4096)

/-- The object bit of cell `r`. -/
theorem objBit_row : k0_pay5 x1 (ix2 r 0) = RowSpec.objBit (rowOf x1 r) := by
  simp only [k0_pay5, k0_pay4, shapeCast_self, cmpf_apply, broadcast_apply, slice2_axis1_eq]
  rfl

/-- The object indicator of cell `r`, as a number. -/
theorem obj_row : k0_pay6 x1 (ix2 r 0) = RowSpec.obj (rowOf x1 r) := by
  simp only [k0_pay6, sitofp_apply, extui_apply, objBit_row]
  exact bit_toInt _

set_option maxHeartbeats 1000000 in
/-- Which box is responsible in cell `r`: the two overlap ratios compared. -/
theorem firstBox_row : firstBox x0 x1 (ix2 r 0) = RowSpec.first (rowOf x0 r) (rowOf x1 r) := by
  simp only [firstBox, k0_pay23, k0_pay22, k0_pay21, k0_pay20, k0_pay19, k0_pay18, k0_pay17, k0_pay16, k0_pay15, k0_pay14,
    k0_pay13, k0_pay12, k0_pay11, k0_pay10, k0_pay9, k0_pay8, k0_pay7, k0_pay4, k0_pay3, shapeCast_self, cmpf_apply,
    mulf_apply, addf_apply, subf_apply, divf_apply, maximumf_apply, minimumf_apply, broadcast_apply, slice2_axis1_eq]
  rfl

set_option maxHeartbeats 1000000 in
/-- The weighted centre term of cell `r`. -/
theorem xy_row :
    k0_pay26 x0 (k0_pay6 x1) (firstBox x0 x1) (k0_pay24 x0 x1) (k0_pay25 x1) (ix2 r 0)
      = (Ideal.ofBits .f32 0x40A00000#32 * RowSpec.obj (rowOf x1 r)) * RowSpec.xyTerm (rowOf x0 r) (rowOf x1 r) := by
  simp only [k0_pay26, k0_pay24, k0_pay25, mulf_apply, select_apply, broadcast_apply,
    LibColumnLayout.shapeCast_a_a1_apply, obj_row, firstBox_row]
  rw [laneSum, laneSum]
  simp only [mulf_apply, subf_apply, slice2_axis1_eq]
  rfl

set_option maxHeartbeats 1000000 in
/-- The weighted size term of cell `r`. -/
theorem wh_row :
    k0_pay27 x0 x1 (k0_pay6 x1) (firstBox x0 x1) (ix2 r 0)
      = (Ideal.ofBits .f32 0x40A00000#32 * RowSpec.obj (rowOf x1 r)) * RowSpec.whTerm (rowOf x0 r) (rowOf x1 r) := by
  simp only [k0_pay27, mulf_apply, select_apply, broadcast_apply, LibColumnLayout.shapeCast_a_a1_apply, obj_row,
    firstBox_row]
  rw [laneSum, laneSum]
  simp only [mulf_apply, subf_apply, sqrt_apply, slice2_axis1_eq]
  rfl

/-- The confidence term of cell `r`. -/
theorem conf_row :
    k0_pay28 x0 x1 (k0_pay6 x1) (firstBox x0 x1) (ix2 r 0)
      = RowSpec.obj (rowOf x1 r) * RowSpec.confTerm (rowOf x0 r) (rowOf x1 r) := by
  simp only [k0_pay28, mulf_apply, subf_apply, select_apply, slice2_axis1_eq, obj_row, firstBox_row]
  rfl

/-- The weighted no-object term of cell `r`. -/
theorem noobj_row :
    k0_pay29 x0 (k0_pay5 x1) (firstBox x0 x1) (ix2 r 0)
      = Ideal.ofBits .f32 0x3F000000#32 * RowSpec.noobjTerm (rowOf x0 r) (rowOf x1 r) := by
  simp only [k0_pay29, mulf_apply, addf_apply, select_apply, broadcast_apply, slice2_axis1_eq, objBit_row, firstBox_row]
  rfl

set_option maxHeartbeats 1000000 in
/-- The total of cell `r`: entry `r` of the step's column of cell totals. -/
theorem cellColumn_row : cellColumn x0 x1 (ix2 r 0) = RowSpec.cellTotal (rowOf x0 r) (rowOf x1 r) := by
  simp only [cellColumn, addf_apply, mulf_apply, LibColumnLayout.shapeCast_a_a1_apply, xy_row, wh_row, conf_row,
    noobj_row, obj_row]
  rw [laneSum]
  simp only [mulf_apply, subf_apply, k0_pay30, k0_pay31, slice2_axis1_eq]
  rfl

/-- What a step stores, at the accumulator's one index: what the accumulator held plus the step's cell totals. -/
theorem stored_apply (acc : Vec Ideal S1x1x1 .f32) (j : S1x1x1.Idx) :
    stored x0 x1 acc j = acc j + ∑ r : Fin 4096, RowSpec.cellTotal (rowOf x0 r) (rowOf x1 r) := by
  obtain rfl : j = ix3 (0 : Fin 1) (0 : Fin 1) (0 : Fin 1) :=
    funext fun a => Fin.ext (by
      match a with
      | ⟨0, _⟩ => have h0 : (j 0).val < 1 := (j 0).isLt; show (j 0 : ℕ) = 0; omega
      | ⟨1, _⟩ => have h1 : (j 1).val < 1 := (j 1).isLt; show (j 1 : ℕ) = 0; omega
      | ⟨2, _⟩ => have h2 : (j 2).val < 1 := (j 2).isLt; show (j 2 : ℕ) = 0; omega)
  rw [stored_eq]
  simp only [addf_apply, shapeCast_ab_1ab_apply, LibColumnLayout.shapeCast_a_a1_apply]
  rw [colSum]
  simp only [cellColumn_row]

end Cert.KernelIdeal.Cell

end
-- ==== Proof.LossConsts.lean ====
/-
  The float constants of the loss, as the extended reals their words denote: zero, one half, two and five.
  Only these four are ever evaluated; every other constant (the one, the 1e-10 of the overlap ratio, the batch size)
  appears as the same word on both sides and stays a word.
-/
import Idealize.ShloMosaic.PureOps.Ideal

noncomputable section

namespace Cert.LossConsts

open Idealize.ShloMosaic

/-- The word of `+0.0` is the real zero. -/
theorem ofBits_zero : Ideal.ofBits .f32 0x00000000#32 = 0 := by
  simp [Ideal.ofBits, Ideal.ieee]

/-- A sum started from the word of zero is the sum. -/
theorem zero_word_add (x : EReal) : Ideal.ofBits .f32 0x00000000#32 + x = x := by
  rw [ofBits_zero, zero_add]

/-- The word of `0.5` is the real one half. -/
theorem ofBits_half : Ideal.ofBits .f32 0x3F000000#32 = ((1 / 2 : ℝ) : EReal) := by
  simp [Ideal.ofBits, Ideal.ieee, -EReal.coe_mul]; norm_num

/-- The word of `2.0` is the real two. -/
theorem ofBits_two : Ideal.ofBits .f32 0x40000000#32 = ((2 : ℝ) : EReal) := by
  simp [Ideal.ofBits, Ideal.ieee, -EReal.coe_mul]; norm_num

/-- The word of `5.0` is the real five. -/
theorem ofBits_five : Ideal.ofBits .f32 0x40A00000#32 = ((5 : ℝ) : EReal) := by
  simp [Ideal.ofBits, Ideal.ieee, -EReal.coe_mul]; norm_num

/-- Halving: the quotient by the word of two is the product with the word of one half, on every extended real. -/
theorem div_two_eq_mul_half (x : EReal) :
    Ideal.div x (Ideal.ofBits .f32 0x40000000#32) = x * Ideal.ofBits .f32 0x3F000000#32 := by
  rw [ofBits_two, ofBits_half]
  exact Ideal.div_coe (by norm_num) x

end Cert.LossConsts

end
-- ==== Proof.KernelAcc.lean ====
/-
  What the kernel's result array holds after the region: for each core, the sum of its 98 steps' totals.

  The grid has 196 steps: core `q` runs steps `98·q … 98·q + 97`, each on its own block of 4096 rows, all into one
  accumulator element that is written back to entry `(q, 0, 0)` of the `[2, 1, 1]` result after the core's last step.
  A core's first step starts the accumulator from zero and every later step adds to what the step before left, so after
  step `n` it holds the totals of the core's steps so far (by induction on `n`), and after the last one all 98.
-/
import proofs.«181994_j63677185130639_2_alg».proof.Proof.KernelCases
import proofs.«181994_j63677185130639_2_alg».proof.Proof.KernelCell
import proofs.«181994_j63677185130639_2_alg».proof.Proof.LossConsts
import Idealize.ShloMosaic.Lib.Pipeline.Value

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Cases Cert.KernelIdeal.Cell Cert

variable (m : (ℓ : Loc nD τ sig) → Buf (Elt Ideal) ℓ) (ρ : Dev nD → PrngReg)

/-- The total of step `t`: the sum of the totals of the 4096 cells of its two blocks. -/
def stepTotal (c : Dev nD) (t : Fin cfg0.N) : EReal :=
  ∑ r : Fin 4096, RowSpec.cellTotal (rowOf (iblk m c 0 t) r) (rowOf (iblk m c 1 t) r)

/-- The total of step number `k` (zero past the grid's last step). -/
def stepAt (c : Dev nD) (k : ℕ) : EReal := if h : k < cfg0.N then stepTotal m c ⟨k, h⟩ else 0

/-- What the accumulator holds after step `n`: the totals of the steps of `n`'s core from its first up to `n`. -/
def accAfter (c : Dev nD) (n : ℕ) : EReal := ∑ i ∈ Finset.range (n % 98 + 1), stepAt m c (n - n % 98 + i)

theorem accAfter_first (c : Dev nD) (n : ℕ) (h0 : n % 98 = 0) : accAfter m c n = stepAt m c n := by
  unfold accAfter
  rw [h0]
  simp

theorem accAfter_succ (c : Dev nD) (n : ℕ) (h0 : ¬(n + 1) % 98 = 0) :
    accAfter m c (n + 1) = accAfter m c n + stepAt m c (n + 1) := by
  unfold accAfter
  have e1 : (n + 1) % 98 = n % 98 + 1 := by omega
  have e2 : n + 1 - (n % 98 + 1) = n - n % 98 := by omega
  have e3 : n - n % 98 + (n % 98 + 1) = n + 1 := by omega
  rw [e1, e2, Finset.sum_range_succ, e3]

/-- A core's first step leaves its own total: the zero it stored first, plus the step's cells. -/
theorem outs_first (c : Dev nD) (t : Fin cfg0.N) (h0 : t.val % 98 = 0) (j : S1x1x1.Idx) :
    outsAt0 m c t.val t.isLt j = stepTotal m c t := by
  have e := congrFun ((outsAt0_A m c t h0).trans
    (out_A c (grid0.coords t) (ms0_0 t) (hs0_0 t) (ms0_1 t) (hs0_1 t) (ms0_2 t) (hs0_2 t) ((hcond0_0 t).mpr h0)
      (iblk m c 0 t) (iblk m c 1 t))) j
  refine e.trans ((stored_apply (iblk m c 0 t) (iblk m c 1 t) (k0_pay2 (F := Ideal)) j).trans ?_)
  show Ideal.ofBits .f32 0x00000000#32 + stepTotal m c t = stepTotal m c t
  exact LossConsts.zero_word_add _

/-- A later step adds its total to what the step before left. -/
theorem outs_later (c : Dev nD) (t : Fin cfg0.N) (h0 : ¬t.val % 98 = 0) (j : S1x1x1.Idx) :
    outsAt0 m c t.val t.isLt j
      = outsAt0 m c (t.val - 1) (Nat.lt_of_le_of_lt (Nat.sub_le _ _) t.isLt) j + stepTotal m c t := by
  have e := congrFun ((outsAt0_B m c t h0).trans
    (out_B c (grid0.coords t) (ms0_0 t) (hs0_0 t) (ms0_1 t) (hs0_1 t) (ms0_2 t) (hs0_2 t) (fun h => h0 ((hcond0_0 t).mp h))
      (iblk m c 0 t) (iblk m c 1 t) (outsAt0 m c (t.val - 1) (Nat.lt_of_le_of_lt (Nat.sub_le _ _) t.isLt)))) j
  exact e.trans (stored_apply (iblk m c 0 t) (iblk m c 1 t) _ j)

/-- After step `n` the accumulator holds the totals of its core's steps so far. -/
theorem outsAt_eq (c : Dev nD) : ∀ (n : ℕ) (h : n < cfg0.N) (j : S1x1x1.Idx), outsAt0 m c n h j = accAfter m c n
  | 0, h, j => by
    rw [accAfter_first m c 0 rfl]
    exact (outs_first m c ⟨0, h⟩ rfl j).trans (by unfold stepAt; rw [dif_pos h])
  | n + 1, h, j => by
    by_cases h0 : (n + 1) % 98 = 0
    · rw [accAfter_first m c (n + 1) h0]
      exact (outs_first m c ⟨n + 1, h⟩ h0 j).trans (by unfold stepAt; rw [dif_pos h])
    · rw [accAfter_succ m c n h0]
      refine (outs_later m c ⟨n + 1, h⟩ h0 j).trans ?_
      show outsAt0 m c n _ j + stepTotal m c ⟨n + 1, h⟩ = _
      rw [outsAt_eq c n]
      unfold stepAt
      rw [dif_pos h]

/-- Core `q`'s total: its 98 steps'. -/
def coreTotal (c : Dev nD) (q : ℕ) : EReal := ∑ i ∈ Finset.range 98, stepAt m c (q * 98 + i)

/-- The result array: entry `(q, 0, 0)` is core `q`'s total. -/
def resultArr (c : Dev nD) : S2x1x1.Idx → EReal := fun y => coreTotal m c (y 0).val

/-- The output window's block at step `t` is entry `t / 98` of the first axis, the only entry of the other two. -/
theorem idx_facts : ∀ t : Fin cfg0.N, win0_2.index t (0 : Fin 3) = t.val / 98 ∧ win0_2.index t (1 : Fin 3) = 0
    ∧ win0_2.index t (2 : Fin 3) = 0 :=
  (by decide +kernel : ∀ t : Fin grid0.N, _)

/-- What a core's last step writes back is its block of the result array. -/
theorem flushed_eq (c : Dev nD) (t : Fin cfg0.N) (hf : (cfg0.win 2).flush t = true) :
    (dats m 0 c).flushed 2 t = ((cfg0.win 2).blk t).view.read (Elt Ideal) (resultArr m c) := by
  have h97 : t.val % 98 = 97 := (flush0_2 t).mp hf
  obtain ⟨e0, e1, e2⟩ := idx_facts t
  show (cfg0.win 2).cut (grid0.coords t) ((dats m 0 c).after 2 t) = _
  rw [after0_2]
  funext y
  show outsAt0 m c t.val t.isLt y = resultArr m c (((cfg0.win 2).blk t).view.emb y)
  rw [outsAt_eq m c t.val t.isLt y]
  have hy : (y 0).val < 1 := (y 0).isLt
  have hemb : ((((cfg0.win 2).blk t).view.emb y) 0).val = t.val / 98 := by
    show win0_2.index t (0 : Fin 3) * 1 + 1 * (y 0).val = t.val / 98
    omega
  unfold resultArr coreTotal accAfter
  rw [hemb, h97]
  have e4 : t.val - 97 = t.val / 98 * 98 := by omega
  rw [e4]

/-- An index of the result array is in step `t`'s block iff each coordinate is in the block's range on its axis. -/
theorem mem_blk (t : Fin cfg0.N) (i : S2x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v2).slice (win0_2.rect t)).set ↔ _
  rw [View.set_slice_whole, Rect.mem_set_unit]
  exact Iff.rfl

/-- After the region the result array holds the two cores' totals: entry `(q, 0, 0)` is written by core `q`'s last step. -/
theorem final_o (c : Dev nD) : (dats m 0 c).arrAt 2 cfg0.N = resultArr m c :=
  (dats m 0 c).arrAt_eq_of_cover 2 (resultArr m c) (flushed_eq m c) fun i => by
    have hi0 : (i 0).val < 2 := (i 0).isLt
    have hi1 : (i 1).val < 1 := (i 1).isLt
    have hi2 : (i 2).val < 1 := (i 2).isLt
    have hN : cfg0.N = 196 := N_0
    have hlt : (i 0).val * 98 + 97 < cfg0.N := by rw [hN]; omega
    obtain ⟨e0, e1, e2⟩ := idx_facts ⟨(i 0).val * 98 + 97, hlt⟩
    refine ⟨⟨(i 0).val * 98 + 97, hlt⟩, (flush0_2 _).mpr (by show ((i 0).val * 98 + 97) % 98 = 97; omega), ?_⟩
    rw [mem_blk]
    intro a
    match a with
    | ⟨0, _⟩ =>
      show win0_2.index ⟨(i 0).val * 98 + 97, hlt⟩ (0 : Fin 3) * 1 ≤ (i 0).val
        ∧ (i 0).val < win0_2.index ⟨(i 0).val * 98 + 97, hlt⟩ (0 : Fin 3) * 1 + 1
      rw [e0]
      show ((i 0).val * 98 + 97) / 98 * 1 ≤ (i 0).val ∧ (i 0).val < ((i 0).val * 98 + 97) / 98 * 1 + 1
      omega
    | ⟨1, _⟩ =>
      show win0_2.index ⟨(i 0).val * 98 + 97, hlt⟩ (1 : Fin 3) * 1 ≤ (i 1).val
        ∧ (i 1).val < win0_2.index ⟨(i 0).val * 98 + 97, hlt⟩ (1 : Fin 3) * 1 + 1
      rw [e1]; omega
    | ⟨2, _⟩ =>
      show win0_2.index ⟨(i 0).val * 98 + 97, hlt⟩ (2 : Fin 3) * 1 ≤ (i 2).val
        ∧ (i 2).val < win0_2.index ⟨(i 0).val * 98 + 97, hlt⟩ (2 : Fin 3) * 1 + 1
      rw [e2]; omega

end Cert.KernelIdeal.Acc

end
-- ==== Proof.LibBlocks.lean ====
/-
  A sum over rows grouped into equal consecutive blocks: summing each block and then the block sums is the sum
  over all rows, in any commutative monoid (no finiteness is involved: the regrouping of a finite sum).
-/
import Mathlib.Algebra.BigOperators.Fin
import Mathlib.Logic.Equiv.Fin.Basic
import Mathlib.Tactic

namespace Cert.LibBlocks

/-- Row `q` of block `t`, when `B` blocks of `T` rows make up `R` rows. -/
def blockRow {B T R : ℕ} (h : B * T = R) (t : Fin B) (q : Fin T) : Fin R :=
  ⟨t.val * T + q.val, by
    have ht := t.isLt
    have hq := q.isLt
    calc t.val * T + q.val < t.val * T + T := by omega
      _ = (t.val + 1) * T := by ring
      _ ≤ B * T := Nat.mul_le_mul_right T ht
      _ = R := h⟩

theorem blockRow_val {B T R : ℕ} (h : B * T = R) (t : Fin B) (q : Fin T) : (blockRow h t q).val = t.val * T + q.val := rfl

/-- The block sums add up to the whole sum. -/
theorem sum_blocks {M : Type*} [AddCommMonoid M] {B T R : ℕ} (h : B * T = R) (f : Fin R → M) :
    ∑ t : Fin B, ∑ q : Fin T, f (blockRow h t q) = ∑ r : Fin R, f r := by
  subst h
  rw [← Equiv.sum_comp finProdFinEquiv f, Fintype.sum_prod_type]
  refine Finset.sum_congr rfl fun t _ => Finset.sum_congr rfl fun q _ => ?_
  congr 1
  apply Fin.ext
  simp only [blockRow_val, finProdFinEquiv_apply_val]
  ring

end Cert.LibBlocks
-- ==== Proof.KernelResult.lean ====
/-
  The idealized kernel's run and its result as one sum over all cells.

  After the region @main adds the two cores' totals (from zero) and divides by the batch size. Core `q`'s 98 steps read
  the consecutive blocks `98·q … 98·q + 97` of 4096 rows of the two arguments reshaped to `[802816, 30]`, so the two
  cores' totals together are the sum of the cell totals of all 802816 rows — blocks of blocks regrouped, addition being
  commutative and associative.
-/
import proofs.«181994_j63677185130639_2_alg».proof.Proof.KernelAcc
import proofs.«181994_j63677185130639_2_alg».proof.Proof.LibBlocks
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Cases Cert.KernelIdeal.Cell Cert.KernelIdeal.Acc Cert

variable (m : (ℓ : Loc nD τ sig) → Buf (Elt Ideal) ℓ) (ρ : Dev nD → PrngReg)

/-- The result: the result array summed from zero, over the batch size. -/
def resultWord (c : Dev nD) : Buf (Elt Ideal) ((c.tc : Thread nD τ).loc main_v4) :=
  Host.divf (F := Ideal)
    (Host.reduceAdd (F := Ideal) (resultArr m c) (constant (F := Ideal) S_ .f32 0x00000000#32) reducesTo_S2x1x1_S_d0_1_2 h_S_)
    (constant (F := Ideal) S_ .f32 0x46800000#32)

/-- The host lines after the region, run on the result array the region leaves. -/
theorem tail_eq (c : Dev nD) :
    Pipeline.afterTail₀ cfgs (dats m) 0 (V0 m) [hostOps1] c main_v4 = resultWord m c := by
  unfold Pipeline.afterTail₀
  show StableHlo.after hostOps1 _ (Proc.devRef .tc main_v4) = _
  after_results
  have hA : Pipeline.withArrays (cfgs 0).spec c (V0 m c) (fun w => (dats m 0 c).arrAt w (cfgs 0).N)
      (Proc.devRef .tc main_v2) = resultArr m c :=
    (Pipeline.withArrays_arr spec0 launch0.win.arr_inj c _ _ 2).trans (final_o m c)
  rw [hA]
  rfl

/-- The idealized kernel's run: every weakly fair execution ends with the result at `resultWord`, the arguments unchanged. -/
theorem run : θ_run defs (onTc (τ := τ) (main (F := Ideal))) ⟨m, fun _ => 0, ρ⟩ fun r => ∀ c : Dev nD,
      r.2.mem ((c.tc : Thread nD τ).loc main_v4) = resultWord m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-! ## The blocks are consecutive rows of the reshaped arguments -/

/-- The region finds the two arguments reshaped to `[802816, 30]`: the host lines before it. -/
theorem V_v0 (c : Dev nD) : (V m c main_v0 : S802816x30.Idx → EReal)
    = shapeCast S802816x30 (m ((c : Thread nD τ).loc main_arg0)) shapeCasts_S16384x7x7x30_S802816x30 := by
  show StableHlo.after hostOps0 (fun b => m (c, b)) (Proc.devRef .tc main_v0) = _
  after_results
  rfl

theorem V_v1 (c : Dev nD) : (V m c main_v1 : S802816x30.Idx → EReal)
    = shapeCast S802816x30 (m ((c : Thread nD τ).loc main_arg1)) shapeCasts_S16384x7x7x30_S802816x30 := by
  show StableHlo.after hostOps0 (fun b => m (c, b)) (Proc.devRef .tc main_v1) = _
  after_results
  rfl

/-- Row `n` of an array of rows of thirty. -/
def rowG (X : S802816x30.Idx → EReal) (n : Fin 802816) : Fin 30 → EReal := fun k => X (ix2 n k)

theorem h196 : 2 * 98 = 196 := rfl
theorem h802816 : 196 * 4096 = 802816 := rfl

/-- Both input windows' block at step `t` is block `t` of the rows, all thirty columns. -/
theorem in_idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem N196 : cfg0.N = 196 := N_0

/-- Row `r` of the predictions' block at step `t` is row `4096·t + r` of the reshaped predictions. -/
theorem row_blk0 (c : Dev nD) (t : Fin 196) (r : Fin 4096) :
    rowOf (iblk m c 0 (Fin.cast N196.symm t)) r = rowG (V m c main_v0) (LibBlocks.blockRow h802816 t r) := by
  obtain ⟨e0, e1, -, -⟩ := in_idx_facts (Fin.cast N196.symm t)
  funext k
  unfold rowOf rowG iblk
  rw [View.read_apply]
  show V m c main_v0 _ = V m c main_v0 _
  refine congrArg (V m c main_v0) (funext fun a => Fin.ext ?_)
  match a with
  | ⟨0, _⟩ =>
    show win0_0.index (Fin.cast N196.symm t) (0 : Fin 2) * 4096 + 1 * r.val = t.val * 4096 + r.val
    rw [e0]; show t.val * 4096 + 1 * r.val = _; omega
  | ⟨1, _⟩ =>
    show win0_0.index (Fin.cast N196.symm t) (1 : Fin 2) * 30 + 1 * k.val = k.val
    rw [e1]; omega

/-- The same for the labels. -/
theorem row_blk1 (c : Dev nD) (t : Fin 196) (r : Fin 4096) :
    rowOf (iblk m c 1 (Fin.cast N196.symm t)) r = rowG (V m c main_v1) (LibBlocks.blockRow h802816 t r) := by
  obtain ⟨-, -, e0, e1⟩ := in_idx_facts (Fin.cast N196.symm t)
  funext k
  unfold rowOf rowG iblk
  rw [View.read_apply]
  show V m c main_v1 _ = V m c main_v1 _
  refine congrArg (V m c main_v1) (funext fun a => Fin.ext ?_)
  match a with
  | ⟨0, _⟩ =>
    show win0_1.index (Fin.cast N196.symm t) (0 : Fin 2) * 4096 + 1 * r.val = t.val * 4096 + r.val
    rw [e0]; show t.val * 4096 + 1 * r.val = _; omega
  | ⟨1, _⟩ =>
    show win0_1.index (Fin.cast N196.symm t) (1 : Fin 2) * 30 + 1 * k.val = k.val
    rw [e1]; omega

/-- The total of step `t` over the global rows of its block. -/
theorem stepAt_eq (c : Dev nD) (t : Fin 196) : stepAt m c t.val
    = ∑ r : Fin 4096, RowSpec.cellTotal (rowG (V m c main_v0) (LibBlocks.blockRow h802816 t r))
        (rowG (V m c main_v1) (LibBlocks.blockRow h802816 t r)) := by
  unfold stepAt
  rw [dif_pos (by rw [N196]; exact t.isLt)]
  unfold stepTotal
  refine Finset.sum_congr rfl fun r _ => ?_
  rw [← row_blk0 m c t r, ← row_blk1 m c t r]
  rfl

/-! ## The two cores' totals are the sum over all rows -/

/-- The result array's indices are its first coordinates. -/
def idxEquiv : S2x1x1.Idx ≃ Fin 2 where
  toFun y := (y 0 : Fin 2)
  invFun q := ix3 q (0 : Fin 1) (0 : Fin 1)
  left_inv y := by
    funext a; apply Fin.ext
    match a with
    | ⟨0, _⟩ => rfl
    | ⟨1, _⟩ => have h : (y 1).val < 1 := (y 1).isLt; show 0 = (y 1).val; omega
    | ⟨2, _⟩ => have h : (y 2).val < 1 := (y 2).isLt; show 0 = (y 2).val; omega
  right_inv q := rfl

/-- The entries of the result array add up to the sum of the cell totals of all 802816 rows. -/
theorem resultArr_sum (c : Dev nD) : ∑ y : S2x1x1.Idx, resultArr m c y
    = ∑ n : Fin 802816, RowSpec.cellTotal (rowG (V m c main_v0) n) (rowG (V m c main_v1) n) := by
  rw [← LibBlocks.sum_blocks h802816, ← LibBlocks.sum_blocks h196]
  rw [← Equiv.sum_comp idxEquiv]
  refine Finset.sum_congr rfl fun y _ => ?_
  show coreTotal m c (y 0).val = _
  unfold coreTotal
  rw [Finset.sum_range]
  refine Finset.sum_congr rfl fun i _ => ?_
  exact stepAt_eq m c (LibBlocks.blockRow h196 (idxEquiv y) i)

/-- The result at its one index: the sum over all rows, from zero, over the batch size. -/
theorem resultWord_apply (c : Dev nD) (i : S_.Idx) : resultWord m c i
    = Ideal.div (Ideal.ofBits .f32 0x00000000#32
        + ∑ n : Fin 802816, RowSpec.cellTotal (rowG (V m c main_v0) n) (rowG (V m c main_v1) n))
      (Ideal.ofBits .f32 0x46800000#32) := by
  rw [← resultArr_sum]
  unfold resultWord
  show Ideal.div (Host.reduceAdd (F := Ideal) (resultArr m c) (constant (F := Ideal) S_ .f32 0x00000000#32)
    reducesTo_S2x1x1_S_d0_1_2 h_S_ i) _ = _
  simp only [Host.reduceAdd, Ideal.hostReduceAdd_def]
  rw [Ideal.hostReduceAdd_total reducesTo_S2x1x1_S_d0_1_2 (fun b => b.elim0) (resultArr m c) _ i]
  rfl

end Cert.KernelIdeal.Result

end
-- ==== Proof.RefRunW.lean ====
/-
  The reference's run, in five stretches.

  The reference is a straight line of 283 host operations, printed in five parts. Each part is the sequence of its own
  operations (by unfolding), so the whole is the sequence of the five lists joined, and the library's theorem on straight
  lines applies: every weakly fair execution terminates, nothing faults, and every buffer ends at the fold of the
  operations' results over the launch contents. The fold is opened elsewhere (module RefValue); here it is only shown
  that it leaves the two arguments alone — no operation writes them.
-/
import proofs.«181994_j63677185130639_2_alg».proof.Proof.Gen.ReferenceIdeal
import Idealize.ShloMosaic.Lib.StableHlo.Run

noncomputable section

namespace Cert.ReferenceIdeal.RunW

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The operations of @main's statements 1 … 60, in order (a called function's operations in its call's place). -/
abbrev ops0 : List (HloOp τ sig (Elt F)) :=
  [ unary main_arg1 main_v0 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v0 main_v1 rfl shapeCasts_S16384x7x7x1_S16384x7x7,
    nullary main_cst (constant S_ .f32 0x3F800000#32),
    unary main_cst main_v2 (broadcastInDim S16384x7x7 ![] bcast_S_S16384x7x7 : (⟨S_, .f32⟩ : BufTy).Contents (Elt F) → (⟨S16384x7x7, .f32⟩ : BufTy).Contents (Elt F)),
    binary main_v1 main_v2 main_v3 (cmpf .oeq : (⟨S16384x7x7, .f32⟩ : BufTy).Contents (Elt F) → (⟨S16384x7x7, .f32⟩ : BufTy).Contents (Elt F) → (⟨S16384x7x7, .i1⟩ : BufTy).Contents (Elt F)),
    unary main_arg0 main_v4 ((extractStridedSlice S16384x7x7x4 ![0, 0, 0, 0] · slices_S16384x7x7x30_S16384x7x7x4_0_0_0_0) : (⟨S16384x7x7x30, .f32⟩ : BufTy).Contents (Elt F) → (⟨S16384x7x7x4, .f32⟩ : BufTy).Contents (Elt F)),
    unary main_arg1 main_v5 ((extractStridedSlice S16384x7x7x4 ![0, 0, 0, 0] · slices_S16384x7x7x30_S16384x7x7x4_0_0_0_0) : (⟨S16384x7x7x30, .f32⟩ : BufTy).Contents (Elt F) → (⟨S16384x7x7x4, .f32⟩ : BufTy).Contents (Elt F)),
    unary main_v4 main_v6 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v6 main_v7 rfl shapeCasts_S16384x7x7x1_S16384x7x7,
    unary main_v4 main_v8 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v8 main_v9 rfl shapeCasts_S16384x7x7x1_S16384x7x7,
    nullary main_cst_0 (constant S_ .f32 0x40000000#32),
    unary main_cst_0 main_v10 (broadcastInDim S16384x7x7 ![] bcast_S_S16384x7x7 : (⟨S_, .f32⟩ : BufTy).Contents (Elt F) → (⟨S16384x7x7, .f32⟩ : BufTy).Contents (Elt F)),
    binary main_v9 main_v10 main_v11 (Host.divf : (⟨S16384x7x7, .f32⟩ : BufTy).Contents (Elt F) → (⟨S16384x7x7, .f32⟩ : BufTy).Contents (Elt F) → (⟨S16384x7x7, .f32⟩ : BufTy).Contents (Elt F)),
    binary main_v7 main_v11 main_v12 (subf : (⟨S16384x7x7, .f32⟩ : BufTy).Contents (Elt F) → (⟨S16384x7x7, .f32⟩ : BufTy).Contents (Elt F) → (⟨S16384x7x7, .f32⟩ : BufTy).Contents (Elt F)),
    unary main_v4 main_v13 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v13 main_v14 rfl shapeCasts_S16384x7x7x1_S16384x7x7,
    unary main_v4 main_v15 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v15 main_v16 rfl shapeCasts_S16384x7x7x1_S16384x7x7,
    nullary main_cst_1 (constant S_ .f32 0x40000000#32),
    unary main_cst_1 main_v17 (broadcastInDim S16384x7x7 ![] bcast_S_S16384x7x7 : (⟨S_, .f32⟩ : BufTy).Contents (Elt F) → (⟨S16384x7x7, .f32⟩ : BufTy).Contents (Elt F)),
    binary main_v16 main_v17 main_v18 (Host.divf : (⟨S16384x7x7, .f32⟩ : BufTy).Contents (Elt F) → (⟨S16384x7x7, .f32⟩ : BufTy).Contents (Elt F) → (⟨S16384x7x7, .f32⟩ : BufTy).Contents (Elt F)),
    binary main_v14 main_v18 main_v19 (subf : (⟨S16384x7x7, .f32⟩ : BufTy).Contents (Elt F) → (⟨S16384x7x7, .f32⟩ : BufTy).Contents (Elt F) → (⟨S16384x7x7, .f32⟩ : BufTy).Contents (Elt F)),
    unary main_v4 main_v20 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v20 main_v21 rfl shapeCasts_S16384x7x7x1_S16384x7x7,
    unary main_v4 main_v22 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v22 main_v23 rfl shapeCasts_S16384x7x7x1_S16384x7x7,
    nullary main_cst_2 (constant S_ .f32 0x40000000#32),
    unary main_cst_2 main_v24 (broadcastInDim S16384x7x7 ![] bcast_S_S16384x7x7 : (⟨S_, .f32⟩ : BufTy).Contents (Elt F) → (⟨S16384x7x7, .f32⟩ : BufTy).Contents (Elt F)),
    binary main_v23 main_v24 main_v25 (Host.divf : (⟨S16384x7x7, .f32⟩ : BufTy).Contents (Elt F) → (⟨S16384x7x7, .f32⟩ : BufTy).Contents (Elt F) → (⟨S16384x7x7, .f32⟩ : BufTy).Contents (Elt F)),
    binary main_v21 main_v25 main_v26 (addf : (⟨S16384x7x7, .f32⟩ : BufTy).Contents (Elt F) → (⟨S16384x7x7, .f32⟩ : BufTy).Contents (Elt F) → (⟨S16384x7x7, .f32⟩ : BufTy).Contents (Elt F)),
    unary main_v4 main_v27 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v27 main_v28 rfl shapeCasts_S16384x7x7x1_S16384x7x7,
    unary main_v4 main_v29 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v29 main_v30 rfl shapeCasts_S16384x7x7x1_S16384x7x7,
    nullary main_cst_3 (constant S_ .f32 0x40000000#32),
    unary main_cst_3 main_v31 (broadcastInDim S16384x7x7 ![] bcast_S_S16384x7x7 : (⟨S_, .f32⟩ : BufTy).Contents (Elt F) → (⟨S16384x7x7, .f32⟩ : BufTy).Contents (Elt F)),
    binary main_v30 main_v31 main_v32 (Host.divf : (⟨S16384x7x7, .f32⟩ : BufTy).Contents (Elt F) → (⟨S16384x7x7, .f32⟩ : BufTy).Contents (Elt F) → (⟨S16384x7x7, .f32⟩ : BufTy).Contents (Elt F)),
    binary main_v28 main_v32 main_v33 (addf : (⟨S16384x7x7, .f32⟩ : BufTy).Contents (Elt F) → (⟨S16384x7x7, .f32⟩ : BufTy).Contents (Elt F) → (⟨S16384x7x7, .f32⟩ : BufTy).Contents (Elt F)),
    unary main_v5 main_v34 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v34 main_v35 rfl shapeCasts_S16384x7x7x1_S16384x7x7,
    unary main_v5 main_v36 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v36 main_v37 rfl shapeCasts_S16384x7x7x1_S16384x7x7,
    nullary main_cst_4 (constant S_ .f32 0x40000000#32),
    unary main_cst_4 main_v38 (broadcastInDim S16384x7x7 ![] bcast_S_S16384x7x7 : (⟨S_, .f32⟩ : BufTy).Contents (Elt F) → (⟨S16384x7x7, .f32⟩ : BufTy).Contents (Elt F)),
    binary main_v37 main_v38 main_v39 (Host.divf : (⟨S16384x7x7, .f32⟩ : BufTy).Contents (Elt F) → (⟨S16384x7x7, .f32⟩ : BufTy).Contents (Elt F) → (⟨S16384x7x7, .f32⟩ : BufTy).Contents (Elt F)),
    binary main_v35 main_v39 main_v40 (subf : (⟨S16384x7x7, .f32⟩ : BufTy).Contents (Elt F) → (⟨S16384x7x7, .f32⟩ : BufTy).Contents (Elt F) → (⟨S16384x7x7, .f32⟩ : BufTy).Contents (Elt F)),
    unary main_v5 main_v41 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v41 main_v42 rfl shapeCasts_S16384x7x7x1_S16384x7x7,
    unary main_v5 main_v43 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v43 main_v44 rfl shapeCasts_S16384x7x7x1_S16384x7x7,
    nullary main_cst_5 (constant S_ .f32 0x40000000#32),
    unary main_cst_5 main_v45 (broadcastInDim S16384x7x7 ![] bcast_S_S16384x7x7 : (⟨S_, .f32⟩ : BufTy).Contents (Elt F) → (⟨S16384x7x7, .f32⟩ : BufTy).Contents (Elt F)),
    binary main_v44 main_v45 main_v46 (Host.divf : (⟨S16384x7x7, .f32⟩ : BufTy).Contents (Elt F) → (⟨S16384x7x7, .f32⟩ : BufTy).Contents (Elt F) → (⟨S16384x7x7, .f32⟩ : BufTy).Contents (Elt F)),
    binary main_v42 main_v46 main_v47 (subf : (⟨S16384x7x7, .f32⟩ : BufTy).Contents (Elt F) → (⟨S16384x7x7, .f32⟩ : BufTy).Contents (Elt F) → (⟨S16384x7x7, .f32⟩ : BufTy).Contents (Elt F)),
    unary main_v5 main_v48 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v48 main_v49 rfl shapeCasts_S16384x7x7x1_S16384x7x7,
    unary main_v5 main_v50 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v50 main_v51 rfl shapeCasts_S16384x7x7x1_S16384x7x7,
    nullary main_cst_6 (constant S_ .f32 0x40000000#32) ]

set_option maxRecDepth 8192 in
set_option maxHeartbeats 4000000 in
theorem part0_eq (c : Dev nD) : main_part0 (F := F) c = seq ops0 := rfl

set_option maxRecDepth 8192 in
theorem ops0_sub : (ops0 : List (HloOp τ sig (Elt F))).Forall fun op => op.bufs ⊆ tcRefs τ sig :=
  ⟨unary_bufs_sub .., reshape_bufs_sub .., nullary_bufs_sub .., unary_bufs_sub .., binary_bufs_sub ..,
    unary_bufs_sub .., unary_bufs_sub .., unary_bufs_sub .., reshape_bufs_sub .., unary_bufs_sub ..,
    reshape_bufs_sub .., nullary_bufs_sub .., unary_bufs_sub .., binary_bufs_sub .., binary_bufs_sub ..,
    unary_bufs_sub .., reshape_bufs_sub .., unary_bufs_sub .., reshape_bufs_sub .., nullary_bufs_sub ..,
    unary_bufs_sub .., binary_bufs_sub .., binary_bufs_sub .., unary_bufs_sub .., reshape_bufs_sub ..,
    unary_bufs_sub .., reshape_bufs_sub .., nullary_bufs_sub .., unary_bufs_sub .., binary_bufs_sub ..,
    binary_bufs_sub .., unary_bufs_sub .., reshape_bufs_sub .., unary_bufs_sub .., reshape_bufs_sub ..,
    nullary_bufs_sub .., unary_bufs_sub .., binary_bufs_sub .., binary_bufs_sub .., unary_bufs_sub ..,
    reshape_bufs_sub .., unary_bufs_sub .., reshape_bufs_sub .., nullary_bufs_sub .., unary_bufs_sub ..,
    binary_bufs_sub .., binary_bufs_sub .., unary_bufs_sub .., reshape_bufs_sub .., unary_bufs_sub ..,
    reshape_bufs_sub .., nullary_bufs_sub .., unary_bufs_sub .., binary_bufs_sub .., binary_bufs_sub ..,
    unary_bufs_sub .., reshape_bufs_sub .., unary_bufs_sub .., reshape_bufs_sub .., nullary_bufs_sub ..⟩

set_option maxRecDepth 8192 in
theorem ops0_fresh : ∀ op ∈ (ops0 : List (HloOp τ sig (Elt F))), op.fresh = ∅ := by
  intro _ h; (repeat (cases h with | head => rfl | tail _ h => ?_)); exact nomatch h

set_option maxHeartbeats 4000000 in
/-- The operations of @main's statements 61 … 120, in order (a called function's operations in its call's place). -/
abbrev ops1 : List (HloOp τ sig (Elt F)) :=
  [ unary main_cst_6 main_v52 (broadcastInDim S16384x7x7 ![] bcast_S_S16384x7x7 : (⟨S_, .f32⟩ : BufTy).Contents (Elt F) → (⟨S16384x7x7, .f32⟩ : BufTy).Contents (Elt F)),
    binary main_v51 main_v52 main_v53 (Host.divf : (⟨S16384x7x7, .f32⟩ : BufTy).Contents (Elt F) → (⟨S16384x7x7, .f32⟩ : BufTy).Contents (Elt F) → (⟨S16384x7x7, .f32⟩ : BufTy).Contents (Elt F)),
    binary main_v49 main_v53 main_v54 (addf : (⟨S16384x7x7, .f32⟩ : BufTy).Contents (Elt F) → (⟨S16384x7x7, .f32⟩ : BufTy).Contents (Elt F) → (⟨S16384x7x7, .f32⟩ : BufTy).Contents (Elt F)),
    unary main_v5 main_v55 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v55 main_v56 rfl shapeCasts_S16384x7x7x1_S16384x7x7,
    unary main_v5 main_v57 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v57 main_v58 rfl shapeCasts_S16384x7x7x1_S16384x7x7,
    nullary main_cst_7 (constant S_ .f32 0x40000000#32),
    unary main_cst_7 main_v59 (broadcastInDim S16384x7x7 ![] bcast_S_S16384x7x7 : (⟨S_, .f32⟩ : BufTy).Contents (Elt F) → (⟨S16384x7x7, .f32⟩ : BufTy).Contents (Elt F)),
    binary main_v58 main_v59 main_v60 (Host.divf : (⟨S16384x7x7, .f32⟩ : BufTy).Contents (Elt F) → (⟨S16384x7x7, .f32⟩ : BufTy).Contents (Elt F) → (⟨S16384x7x7, .f32⟩ : BufTy).Contents (Elt F)),
    binary main_v56 main_v60 main_v61 (addf : (⟨S16384x7x7, .f32⟩ : BufTy).Contents (Elt F) → (⟨S16384x7x7, .f32⟩ : BufTy).Contents (Elt F) → (⟨S16384x7x7, .f32⟩ : BufTy).Contents (Elt F)),
    binary main_v26 main_v54 main_v62 (minimumf : (⟨S16384x7x7, .f32⟩ : BufTy).Contents (Elt F) → (⟨S16384x7x7, .f32⟩ : BufTy).Contents (Elt F) → (⟨S16384x7x7, .f32⟩ : BufTy).Contents (Elt F)),
    binary main_v12 main_v40 main_v63 (maximumf : (⟨S16384x7x7, .f32⟩ : BufTy).Contents (Elt F) → (⟨S16384x7x7, .f32⟩ : BufTy).Contents (Elt F) → (⟨S16384x7x7, .f32⟩ : BufTy).Contents (Elt F)),
    binary main_v62 main_v63 main_v64 (subf : (⟨S16384x7x7, .f32⟩ : BufTy).Contents (Elt F) → (⟨S16384x7x7, .f32⟩ : BufTy).Contents (Elt F) → (⟨S16384x7x7, .f32⟩ : BufTy).Contents (Elt F)),
    nullary main_cst_8 (constant S_ .f32 0x00000000#32),
    TRef.unary (TRef.of (T := ⟨S_, .f32⟩) main_cst_8) (TRef.of (T := ⟨S_, .f32⟩) main_call0_v0) id,
    TRef.unary (TRef.of (T := ⟨S_, .f32⟩) main_call0_v0) (TRef.of (T := ⟨S16384x7x7, .f32⟩) main_call0_v1) (broadcastInDim S16384x7x7 ![] bcast_S_S16384x7x7),
    TRef.binary (TRef.of (T := ⟨S16384x7x7, .f32⟩) main_call0_v1) (TRef.of (T := ⟨S16384x7x7, .f32⟩) main_v64) (TRef.of (T := ⟨S16384x7x7, .f32⟩) main_v65) maximumf,
    binary main_v33 main_v61 main_v66 (minimumf : (⟨S16384x7x7, .f32⟩ : BufTy).Contents (Elt F) → (⟨S16384x7x7, .f32⟩ : BufTy).Contents (Elt F) → (⟨S16384x7x7, .f32⟩ : BufTy).Contents (Elt F)),
    binary main_v19 main_v47 main_v67 (maximumf : (⟨S16384x7x7, .f32⟩ : BufTy).Contents (Elt F) → (⟨S16384x7x7, .f32⟩ : BufTy).Contents (Elt F) → (⟨S16384x7x7, .f32⟩ : BufTy).Contents (Elt F)),
    binary main_v66 main_v67 main_v68 (subf : (⟨S16384x7x7, .f32⟩ : BufTy).Contents (Elt F) → (⟨S16384x7x7, .f32⟩ : BufTy).Contents (Elt F) → (⟨S16384x7x7, .f32⟩ : BufTy).Contents (Elt F)),
    nullary main_cst_9 (constant S_ .f32 0x00000000#32),
    TRef.unary (TRef.of (T := ⟨S_, .f32⟩) main_cst_9) (TRef.of (T := ⟨S_, .f32⟩) main_call1_v0) id,
    TRef.unary (TRef.of (T := ⟨S_, .f32⟩) main_call1_v0) (TRef.of (T := ⟨S16384x7x7, .f32⟩) main_call1_v1) (broadcastInDim S16384x7x7 ![] bcast_S_S16384x7x7),
    TRef.binary (TRef.of (T := ⟨S16384x7x7, .f32⟩) main_call1_v1) (TRef.of (T := ⟨S16384x7x7, .f32⟩) main_v68) (TRef.of (T := ⟨S16384x7x7, .f32⟩) main_v69) maximumf,
    binary main_v65 main_v69 main_v70 (mulf : (⟨S16384x7x7, .f32⟩ : BufTy).Contents (Elt F) → (⟨S16384x7x7, .f32⟩ : BufTy).Contents (Elt F) → (⟨S16384x7x7, .f32⟩ : BufTy).Contents (Elt F)),
    binary main_v26 main_v12 main_v71 (subf : (⟨S16384x7x7, .f32⟩ : BufTy).Contents (Elt F) → (⟨S16384x7x7, .f32⟩ : BufTy).Contents (Elt F) → (⟨S16384x7x7, .f32⟩ : BufTy).Contents (Elt F)),
    binary main_v33 main_v19 main_v72 (subf : (⟨S16384x7x7, .f32⟩ : BufTy).Contents (Elt F) → (⟨S16384x7x7, .f32⟩ : BufTy).Contents (Elt F) → (⟨S16384x7x7, .f32⟩ : BufTy).Contents (Elt F)),
    binary main_v71 main_v72 main_v73 (mulf : (⟨S16384x7x7, .f32⟩ : BufTy).Contents (Elt F) → (⟨S16384x7x7, .f32⟩ : BufTy).Contents (Elt F) → (⟨S16384x7x7, .f32⟩ : BufTy).Contents (Elt F)),
    binary main_v54 main_v40 main_v74 (subf : (⟨S16384x7x7, .f32⟩ : BufTy).Contents (Elt F) → (⟨S16384x7x7, .f32⟩ : BufTy).Contents (Elt F) → (⟨S16384x7x7, .f32⟩ : BufTy).Contents (Elt F)),
    binary main_v61 main_v47 main_v75 (subf : (⟨S16384x7x7, .f32⟩ : BufTy).Contents (Elt F) → (⟨S16384x7x7, .f32⟩ : BufTy).Contents (Elt F) → (⟨S16384x7x7, .f32⟩ : BufTy).Contents (Elt F)),
    binary main_v74 main_v75 main_v76 (mulf : (⟨S16384x7x7, .f32⟩ : BufTy).Contents (Elt F) → (⟨S16384x7x7, .f32⟩ : BufTy).Contents (Elt F) → (⟨S16384x7x7, .f32⟩ : BufTy).Contents (Elt F)),
    binary main_v73 main_v76 main_v77 (addf : (⟨S16384x7x7, .f32⟩ : BufTy).Contents (Elt F) → (⟨S16384x7x7, .f32⟩ : BufTy).Contents (Elt F) → (⟨S16384x7x7, .f32⟩ : BufTy).Contents (Elt F)),
    binary main_v77 main_v70 main_v78 (subf : (⟨S16384x7x7, .f32⟩ : BufTy).Contents (Elt F) → (⟨S16384x7x7, .f32⟩ : BufTy).Contents (Elt F) → (⟨S16384x7x7, .f32⟩ : BufTy).Contents (Elt F)),
    nullary main_cst_10 (constant S_ .f32 0x2EDBE6FF#32),
    unary main_cst_10 main_v79 (broadcastInDim S16384x7x7 ![] bcast_S_S16384x7x7 : (⟨S_, .f32⟩ : BufTy).Contents (Elt F) → (⟨S16384x7x7, .f32⟩ : BufTy).Contents (Elt F)),
    binary main_v78 main_v79 main_v80 (addf : (⟨S16384x7x7, .f32⟩ : BufTy).Contents (Elt F) → (⟨S16384x7x7, .f32⟩ : BufTy).Contents (Elt F) → (⟨S16384x7x7, .f32⟩ : BufTy).Contents (Elt F)),
    binary main_v70 main_v80 main_v81 (Host.divf : (⟨S16384x7x7, .f32⟩ : BufTy).Contents (Elt F) → (⟨S16384x7x7, .f32⟩ : BufTy).Contents (Elt F) → (⟨S16384x7x7, .f32⟩ : BufTy).Contents (Elt F)),
    unary main_arg0 main_v82 ((extractStridedSlice S16384x7x7x4 ![0, 0, 0, 5] · slices_S16384x7x7x30_S16384x7x7x4_0_0_0_5) : (⟨S16384x7x7x30, .f32⟩ : BufTy).Contents (Elt F) → (⟨S16384x7x7x4, .f32⟩ : BufTy).Contents (Elt F)),
    unary main_arg1 main_v83 ((extractStridedSlice S16384x7x7x4 ![0, 0, 0, 0] · slices_S16384x7x7x30_S16384x7x7x4_0_0_0_0) : (⟨S16384x7x7x30, .f32⟩ : BufTy).Contents (Elt F) → (⟨S16384x7x7x4, .f32⟩ : BufTy).Contents (Elt F)),
    unary main_v82 main_v84 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v84 main_v85 rfl shapeCasts_S16384x7x7x1_S16384x7x7,
    unary main_v82 main_v86 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v86 main_v87 rfl shapeCasts_S16384x7x7x1_S16384x7x7,
    nullary main_cst_11 (constant S_ .f32 0x40000000#32),
    unary main_cst_11 main_v88 (broadcastInDim S16384x7x7 ![] bcast_S_S16384x7x7 : (⟨S_, .f32⟩ : BufTy).Contents (Elt F) → (⟨S16384x7x7, .f32⟩ : BufTy).Contents (Elt F)),
    binary main_v87 main_v88 main_v89 (Host.divf : (⟨S16384x7x7, .f32⟩ : BufTy).Contents (Elt F) → (⟨S16384x7x7, .f32⟩ : BufTy).Contents (Elt F) → (⟨S16384x7x7, .f32⟩ : BufTy).Contents (Elt F)),
    binary main_v85 main_v89 main_v90 (subf : (⟨S16384x7x7, .f32⟩ : BufTy).Contents (Elt F) → (⟨S16384x7x7, .f32⟩ : BufTy).Contents (Elt F) → (⟨S16384x7x7, .f32⟩ : BufTy).Contents (Elt F)),
    unary main_v82 main_v91 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v91 main_v92 rfl shapeCasts_S16384x7x7x1_S16384x7x7,
    unary main_v82 main_v93 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v93 main_v94 rfl shapeCasts_S16384x7x7x1_S16384x7x7,
    nullary main_cst_12 (constant S_ .f32 0x40000000#32),
    unary main_cst_12 main_v95 (broadcastInDim S16384x7x7 ![] bcast_S_S16384x7x7 : (⟨S_, .f32⟩ : BufTy).Contents (Elt F) → (⟨S16384x7x7, .f32⟩ : BufTy).Contents (Elt F)),
    binary main_v94 main_v95 main_v96 (Host.divf : (⟨S16384x7x7, .f32⟩ : BufTy).Contents (Elt F) → (⟨S16384x7x7, .f32⟩ : BufTy).Contents (Elt F) → (⟨S16384x7x7, .f32⟩ : BufTy).Contents (Elt F)),
    binary main_v92 main_v96 main_v97 (subf : (⟨S16384x7x7, .f32⟩ : BufTy).Contents (Elt F) → (⟨S16384x7x7, .f32⟩ : BufTy).Contents (Elt F) → (⟨S16384x7x7, .f32⟩ : BufTy).Contents (Elt F)),
    unary main_v82 main_v98 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v98 main_v99 rfl shapeCasts_S16384x7x7x1_S16384x7x7,
    unary main_v82 main_v100 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v100 main_v101 rfl shapeCasts_S16384x7x7x1_S16384x7x7,
    nullary main_cst_13 (constant S_ .f32 0x40000000#32),
    unary main_cst_13 main_v102 (broadcastInDim S16384x7x7 ![] bcast_S_S16384x7x7 : (⟨S_, .f32⟩ : BufTy).Contents (Elt F) → (⟨S16384x7x7, .f32⟩ : BufTy).Contents (Elt F)),
    binary main_v101 main_v102 main_v103 (Host.divf : (⟨S16384x7x7, .f32⟩ : BufTy).Contents (Elt F) → (⟨S16384x7x7, .f32⟩ : BufTy).Contents (Elt F) → (⟨S16384x7x7, .f32⟩ : BufTy).Contents (Elt F)),
    binary main_v99 main_v103 main_v104 (addf : (⟨S16384x7x7, .f32⟩ : BufTy).Contents (Elt F) → (⟨S16384x7x7, .f32⟩ : BufTy).Contents (Elt F) → (⟨S16384x7x7, .f32⟩ : BufTy).Contents (Elt F)) ]

set_option maxRecDepth 8192 in
set_option maxHeartbeats 4000000 in
theorem part1_eq (c : Dev nD) : main_part1 (F := F) c = seq ops1 := rfl

set_option maxRecDepth 8192 in
theorem ops1_sub : (ops1 : List (HloOp τ sig (Elt F))).Forall fun op => op.bufs ⊆ tcRefs τ sig :=
  ⟨unary_bufs_sub .., binary_bufs_sub .., binary_bufs_sub .., unary_bufs_sub .., reshape_bufs_sub ..,
    unary_bufs_sub .., reshape_bufs_sub .., nullary_bufs_sub .., unary_bufs_sub .., binary_bufs_sub ..,
    binary_bufs_sub .., binary_bufs_sub .., binary_bufs_sub .., binary_bufs_sub .., nullary_bufs_sub ..,
    unary_bufs_sub .., unary_bufs_sub .., binary_bufs_sub .., binary_bufs_sub .., binary_bufs_sub ..,
    binary_bufs_sub .., nullary_bufs_sub .., unary_bufs_sub .., unary_bufs_sub .., binary_bufs_sub ..,
    binary_bufs_sub .., binary_bufs_sub .., binary_bufs_sub .., binary_bufs_sub .., binary_bufs_sub ..,
    binary_bufs_sub .., binary_bufs_sub .., binary_bufs_sub .., binary_bufs_sub .., nullary_bufs_sub ..,
    unary_bufs_sub .., binary_bufs_sub .., binary_bufs_sub .., unary_bufs_sub .., unary_bufs_sub ..,
    unary_bufs_sub .., reshape_bufs_sub .., unary_bufs_sub .., reshape_bufs_sub .., nullary_bufs_sub ..,
    unary_bufs_sub .., binary_bufs_sub .., binary_bufs_sub .., unary_bufs_sub .., reshape_bufs_sub ..,
    unary_bufs_sub .., reshape_bufs_sub .., nullary_bufs_sub .., unary_bufs_sub .., binary_bufs_sub ..,
    binary_bufs_sub .., unary_bufs_sub .., reshape_bufs_sub .., unary_bufs_sub .., reshape_bufs_sub ..,
    nullary_bufs_sub .., unary_bufs_sub .., binary_bufs_sub .., binary_bufs_sub ..⟩

set_option maxRecDepth 8192 in
theorem ops1_fresh : ∀ op ∈ (ops1 : List (HloOp τ sig (Elt F))), op.fresh = ∅ := by
  intro _ h; (repeat (cases h with | head => rfl | tail _ h => ?_)); exact nomatch h

set_option maxHeartbeats 4000000 in
/-- The operations of @main's statements 121 … 180, in order (a called function's operations in its call's place). -/
abbrev ops2 : List (HloOp τ sig (Elt F)) :=
  [ unary main_v82 main_v105 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v105 main_v106 rfl shapeCasts_S16384x7x7x1_S16384x7x7,
    unary main_v82 main_v107 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v107 main_v108 rfl shapeCasts_S16384x7x7x1_S16384x7x7,
    nullary main_cst_14 (constant S_ .f32 0x40000000#32),
    unary main_cst_14 main_v109 (broadcastInDim S16384x7x7 ![] bcast_S_S16384x7x7 : (⟨S_, .f32⟩ : BufTy).Contents (Elt F) → (⟨S16384x7x7, .f32⟩ : BufTy).Contents (Elt F)),
    binary main_v108 main_v109 main_v110 (Host.divf : (⟨S16384x7x7, .f32⟩ : BufTy).Contents (Elt F) → (⟨S16384x7x7, .f32⟩ : BufTy).Contents (Elt F) → (⟨S16384x7x7, .f32⟩ : BufTy).Contents (Elt F)),
    binary main_v106 main_v110 main_v111 (addf : (⟨S16384x7x7, .f32⟩ : BufTy).Contents (Elt F) → (⟨S16384x7x7, .f32⟩ : BufTy).Contents (Elt F) → (⟨S16384x7x7, .f32⟩ : BufTy).Contents (Elt F)),
    unary main_v83 main_v112 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v112 main_v113 rfl shapeCasts_S16384x7x7x1_S16384x7x7,
    unary main_v83 main_v114 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v114 main_v115 rfl shapeCasts_S16384x7x7x1_S16384x7x7,
    nullary main_cst_15 (constant S_ .f32 0x40000000#32),
    unary main_cst_15 main_v116 (broadcastInDim S16384x7x7 ![] bcast_S_S16384x7x7 : (⟨S_, .f32⟩ : BufTy).Contents (Elt F) → (⟨S16384x7x7, .f32⟩ : BufTy).Contents (Elt F)),
    binary main_v115 main_v116 main_v117 (Host.divf : (⟨S16384x7x7, .f32⟩ : BufTy).Contents (Elt F) → (⟨S16384x7x7, .f32⟩ : BufTy).Contents (Elt F) → (⟨S16384x7x7, .f32⟩ : BufTy).Contents (Elt F)),
    binary main_v113 main_v117 main_v118 (subf : (⟨S16384x7x7, .f32⟩ : BufTy).Contents (Elt F) → (⟨S16384x7x7, .f32⟩ : BufTy).Contents (Elt F) → (⟨S16384x7x7, .f32⟩ : BufTy).Contents (Elt F)),
    unary main_v83 main_v119 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v119 main_v120 rfl shapeCasts_S16384x7x7x1_S16384x7x7,
    unary main_v83 main_v121 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v121 main_v122 rfl shapeCasts_S16384x7x7x1_S16384x7x7,
    nullary main_cst_16 (constant S_ .f32 0x40000000#32),
    unary main_cst_16 main_v123 (broadcastInDim S16384x7x7 ![] bcast_S_S16384x7x7 : (⟨S_, .f32⟩ : BufTy).Contents (Elt F) → (⟨S16384x7x7, .f32⟩ : BufTy).Contents (Elt F)),
    binary main_v122 main_v123 main_v124 (Host.divf : (⟨S16384x7x7, .f32⟩ : BufTy).Contents (Elt F) → (⟨S16384x7x7, .f32⟩ : BufTy).Contents (Elt F) → (⟨S16384x7x7, .f32⟩ : BufTy).Contents (Elt F)),
    binary main_v120 main_v124 main_v125 (subf : (⟨S16384x7x7, .f32⟩ : BufTy).Contents (Elt F) → (⟨S16384x7x7, .f32⟩ : BufTy).Contents (Elt F) → (⟨S16384x7x7, .f32⟩ : BufTy).Contents (Elt F)),
    unary main_v83 main_v126 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v126 main_v127 rfl shapeCasts_S16384x7x7x1_S16384x7x7,
    unary main_v83 main_v128 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v128 main_v129 rfl shapeCasts_S16384x7x7x1_S16384x7x7,
    nullary main_cst_17 (constant S_ .f32 0x40000000#32),
    unary main_cst_17 main_v130 (broadcastInDim S16384x7x7 ![] bcast_S_S16384x7x7 : (⟨S_, .f32⟩ : BufTy).Contents (Elt F) → (⟨S16384x7x7, .f32⟩ : BufTy).Contents (Elt F)),
    binary main_v129 main_v130 main_v131 (Host.divf : (⟨S16384x7x7, .f32⟩ : BufTy).Contents (Elt F) → (⟨S16384x7x7, .f32⟩ : BufTy).Contents (Elt F) → (⟨S16384x7x7, .f32⟩ : BufTy).Contents (Elt F)),
    binary main_v127 main_v131 main_v132 (addf : (⟨S16384x7x7, .f32⟩ : BufTy).Contents (Elt F) → (⟨S16384x7x7, .f32⟩ : BufTy).Contents (Elt F) → (⟨S16384x7x7, .f32⟩ : BufTy).Contents (Elt F)),
    unary main_v83 main_v133 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v133 main_v134 rfl shapeCasts_S16384x7x7x1_S16384x7x7,
    unary main_v83 main_v135 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v135 main_v136 rfl shapeCasts_S16384x7x7x1_S16384x7x7,
    nullary main_cst_18 (constant S_ .f32 0x40000000#32),
    unary main_cst_18 main_v137 (broadcastInDim S16384x7x7 ![] bcast_S_S16384x7x7 : (⟨S_, .f32⟩ : BufTy).Contents (Elt F) → (⟨S16384x7x7, .f32⟩ : BufTy).Contents (Elt F)),
    binary main_v136 main_v137 main_v138 (Host.divf : (⟨S16384x7x7, .f32⟩ : BufTy).Contents (Elt F) → (⟨S16384x7x7, .f32⟩ : BufTy).Contents (Elt F) → (⟨S16384x7x7, .f32⟩ : BufTy).Contents (Elt F)),
    binary main_v134 main_v138 main_v139 (addf : (⟨S16384x7x7, .f32⟩ : BufTy).Contents (Elt F) → (⟨S16384x7x7, .f32⟩ : BufTy).Contents (Elt F) → (⟨S16384x7x7, .f32⟩ : BufTy).Contents (Elt F)),
    binary main_v104 main_v132 main_v140 (minimumf : (⟨S16384x7x7, .f32⟩ : BufTy).Contents (Elt F) → (⟨S16384x7x7, .f32⟩ : BufTy).Contents (Elt F) → (⟨S16384x7x7, .f32⟩ : BufTy).Contents (Elt F)),
    binary main_v90 main_v118 main_v141 (maximumf : (⟨S16384x7x7, .f32⟩ : BufTy).Contents (Elt F) → (⟨S16384x7x7, .f32⟩ : BufTy).Contents (Elt F) → (⟨S16384x7x7, .f32⟩ : BufTy).Contents (Elt F)),
    binary main_v140 main_v141 main_v142 (subf : (⟨S16384x7x7, .f32⟩ : BufTy).Contents (Elt F) → (⟨S16384x7x7, .f32⟩ : BufTy).Contents (Elt F) → (⟨S16384x7x7, .f32⟩ : BufTy).Contents (Elt F)),
    nullary main_cst_19 (constant S_ .f32 0x00000000#32),
    TRef.unary (TRef.of (T := ⟨S_, .f32⟩) main_cst_19) (TRef.of (T := ⟨S_, .f32⟩) main_call2_v0) id,
    TRef.unary (TRef.of (T := ⟨S_, .f32⟩) main_call2_v0) (TRef.of (T := ⟨S16384x7x7, .f32⟩) main_call2_v1) (broadcastInDim S16384x7x7 ![] bcast_S_S16384x7x7),
    TRef.binary (TRef.of (T := ⟨S16384x7x7, .f32⟩) main_call2_v1) (TRef.of (T := ⟨S16384x7x7, .f32⟩) main_v142) (TRef.of (T := ⟨S16384x7x7, .f32⟩) main_v143) maximumf,
    binary main_v111 main_v139 main_v144 (minimumf : (⟨S16384x7x7, .f32⟩ : BufTy).Contents (Elt F) → (⟨S16384x7x7, .f32⟩ : BufTy).Contents (Elt F) → (⟨S16384x7x7, .f32⟩ : BufTy).Contents (Elt F)),
    binary main_v97 main_v125 main_v145 (maximumf : (⟨S16384x7x7, .f32⟩ : BufTy).Contents (Elt F) → (⟨S16384x7x7, .f32⟩ : BufTy).Contents (Elt F) → (⟨S16384x7x7, .f32⟩ : BufTy).Contents (Elt F)),
    binary main_v144 main_v145 main_v146 (subf : (⟨S16384x7x7, .f32⟩ : BufTy).Contents (Elt F) → (⟨S16384x7x7, .f32⟩ : BufTy).Contents (Elt F) → (⟨S16384x7x7, .f32⟩ : BufTy).Contents (Elt F)),
    nullary main_cst_20 (constant S_ .f32 0x00000000#32),
    TRef.unary (TRef.of (T := ⟨S_, .f32⟩) main_cst_20) (TRef.of (T := ⟨S_, .f32⟩) main_call3_v0) id,
    TRef.unary (TRef.of (T := ⟨S_, .f32⟩) main_call3_v0) (TRef.of (T := ⟨S16384x7x7, .f32⟩) main_call3_v1) (broadcastInDim S16384x7x7 ![] bcast_S_S16384x7x7),
    TRef.binary (TRef.of (T := ⟨S16384x7x7, .f32⟩) main_call3_v1) (TRef.of (T := ⟨S16384x7x7, .f32⟩) main_v146) (TRef.of (T := ⟨S16384x7x7, .f32⟩) main_v147) maximumf,
    binary main_v143 main_v147 main_v148 (mulf : (⟨S16384x7x7, .f32⟩ : BufTy).Contents (Elt F) → (⟨S16384x7x7, .f32⟩ : BufTy).Contents (Elt F) → (⟨S16384x7x7, .f32⟩ : BufTy).Contents (Elt F)),
    binary main_v104 main_v90 main_v149 (subf : (⟨S16384x7x7, .f32⟩ : BufTy).Contents (Elt F) → (⟨S16384x7x7, .f32⟩ : BufTy).Contents (Elt F) → (⟨S16384x7x7, .f32⟩ : BufTy).Contents (Elt F)),
    binary main_v111 main_v97 main_v150 (subf : (⟨S16384x7x7, .f32⟩ : BufTy).Contents (Elt F) → (⟨S16384x7x7, .f32⟩ : BufTy).Contents (Elt F) → (⟨S16384x7x7, .f32⟩ : BufTy).Contents (Elt F)),
    binary main_v149 main_v150 main_v151 (mulf : (⟨S16384x7x7, .f32⟩ : BufTy).Contents (Elt F) → (⟨S16384x7x7, .f32⟩ : BufTy).Contents (Elt F) → (⟨S16384x7x7, .f32⟩ : BufTy).Contents (Elt F)),
    binary main_v132 main_v118 main_v152 (subf : (⟨S16384x7x7, .f32⟩ : BufTy).Contents (Elt F) → (⟨S16384x7x7, .f32⟩ : BufTy).Contents (Elt F) → (⟨S16384x7x7, .f32⟩ : BufTy).Contents (Elt F)),
    binary main_v139 main_v125 main_v153 (subf : (⟨S16384x7x7, .f32⟩ : BufTy).Contents (Elt F) → (⟨S16384x7x7, .f32⟩ : BufTy).Contents (Elt F) → (⟨S16384x7x7, .f32⟩ : BufTy).Contents (Elt F)),
    binary main_v152 main_v153 main_v154 (mulf : (⟨S16384x7x7, .f32⟩ : BufTy).Contents (Elt F) → (⟨S16384x7x7, .f32⟩ : BufTy).Contents (Elt F) → (⟨S16384x7x7, .f32⟩ : BufTy).Contents (Elt F)),
    binary main_v151 main_v154 main_v155 (addf : (⟨S16384x7x7, .f32⟩ : BufTy).Contents (Elt F) → (⟨S16384x7x7, .f32⟩ : BufTy).Contents (Elt F) → (⟨S16384x7x7, .f32⟩ : BufTy).Contents (Elt F)),
    binary main_v155 main_v148 main_v156 (subf : (⟨S16384x7x7, .f32⟩ : BufTy).Contents (Elt F) → (⟨S16384x7x7, .f32⟩ : BufTy).Contents (Elt F) → (⟨S16384x7x7, .f32⟩ : BufTy).Contents (Elt F)),
    nullary main_cst_21 (constant S_ .f32 0x2EDBE6FF#32) ]

set_option maxRecDepth 8192 in
set_option maxHeartbeats 4000000 in
theorem part2_eq (c : Dev nD) : main_part2 (F := F) c = seq ops2 := rfl

set_option maxRecDepth 8192 in
theorem ops2_sub : (ops2 : List (HloOp τ sig (Elt F))).Forall fun op => op.bufs ⊆ tcRefs τ sig :=
  ⟨unary_bufs_sub .., reshape_bufs_sub .., unary_bufs_sub .., reshape_bufs_sub .., nullary_bufs_sub ..,
    unary_bufs_sub .., binary_bufs_sub .., binary_bufs_sub .., unary_bufs_sub .., reshape_bufs_sub ..,
    unary_bufs_sub .., reshape_bufs_sub .., nullary_bufs_sub .., unary_bufs_sub .., binary_bufs_sub ..,
    binary_bufs_sub .., unary_bufs_sub .., reshape_bufs_sub .., unary_bufs_sub .., reshape_bufs_sub ..,
    nullary_bufs_sub .., unary_bufs_sub .., binary_bufs_sub .., binary_bufs_sub .., unary_bufs_sub ..,
    reshape_bufs_sub .., unary_bufs_sub .., reshape_bufs_sub .., nullary_bufs_sub .., unary_bufs_sub ..,
    binary_bufs_sub .., binary_bufs_sub .., unary_bufs_sub .., reshape_bufs_sub .., unary_bufs_sub ..,
    reshape_bufs_sub .., nullary_bufs_sub .., unary_bufs_sub .., binary_bufs_sub .., binary_bufs_sub ..,
    binary_bufs_sub .., binary_bufs_sub .., binary_bufs_sub .., nullary_bufs_sub .., unary_bufs_sub ..,
    unary_bufs_sub .., binary_bufs_sub .., binary_bufs_sub .., binary_bufs_sub .., binary_bufs_sub ..,
    nullary_bufs_sub .., unary_bufs_sub .., unary_bufs_sub .., binary_bufs_sub .., binary_bufs_sub ..,
    binary_bufs_sub .., binary_bufs_sub .., binary_bufs_sub .., binary_bufs_sub .., binary_bufs_sub ..,
    binary_bufs_sub .., binary_bufs_sub .., binary_bufs_sub .., nullary_bufs_sub ..⟩

set_option maxRecDepth 8192 in
theorem ops2_fresh : ∀ op ∈ (ops2 : List (HloOp τ sig (Elt F))), op.fresh = ∅ := by
  intro _ h; (repeat (cases h with | head => rfl | tail _ h => ?_)); exact nomatch h

set_option maxHeartbeats 4000000 in
/-- The operations of @main's statements 181 … 240, in order (a called function's operations in its call's place). -/
abbrev ops3 : List (HloOp τ sig (Elt F)) :=
  [ unary main_cst_21 main_v157 (broadcastInDim S16384x7x7 ![] bcast_S_S16384x7x7 : (⟨S_, .f32⟩ : BufTy).Contents (Elt F) → (⟨S16384x7x7, .f32⟩ : BufTy).Contents (Elt F)),
    binary main_v156 main_v157 main_v158 (addf : (⟨S16384x7x7, .f32⟩ : BufTy).Contents (Elt F) → (⟨S16384x7x7, .f32⟩ : BufTy).Contents (Elt F) → (⟨S16384x7x7, .f32⟩ : BufTy).Contents (Elt F)),
    binary main_v148 main_v158 main_v159 (Host.divf : (⟨S16384x7x7, .f32⟩ : BufTy).Contents (Elt F) → (⟨S16384x7x7, .f32⟩ : BufTy).Contents (Elt F) → (⟨S16384x7x7, .f32⟩ : BufTy).Contents (Elt F)),
    binary main_v81 main_v159 main_v160 (cmpf .ogt : (⟨S16384x7x7, .f32⟩ : BufTy).Contents (Elt F) → (⟨S16384x7x7, .f32⟩ : BufTy).Contents (Elt F) → (⟨S16384x7x7, .i1⟩ : BufTy).Contents (Elt F)),
    unary main_arg1 main_v161 ((extractStridedSlice S16384x7x7x2 ![0, 0, 0, 0] · slices_S16384x7x7x30_S16384x7x7x2_0_0_0_0) : (⟨S16384x7x7x30, .f32⟩ : BufTy).Contents (Elt F) → (⟨S16384x7x7x2, .f32⟩ : BufTy).Contents (Elt F)),
    unary main_arg0 main_v162 ((extractStridedSlice S16384x7x7x2 ![0, 0, 0, 0] · slices_S16384x7x7x30_S16384x7x7x2_0_0_0_0) : (⟨S16384x7x7x30, .f32⟩ : BufTy).Contents (Elt F) → (⟨S16384x7x7x2, .f32⟩ : BufTy).Contents (Elt F)),
    binary main_v161 main_v162 main_v163 (subf : (⟨S16384x7x7x2, .f32⟩ : BufTy).Contents (Elt F) → (⟨S16384x7x7x2, .f32⟩ : BufTy).Contents (Elt F) → (⟨S16384x7x7x2, .f32⟩ : BufTy).Contents (Elt F)),
    binary main_v163 main_v163 main_v164 (mulf : (⟨S16384x7x7x2, .f32⟩ : BufTy).Contents (Elt F) → (⟨S16384x7x7x2, .f32⟩ : BufTy).Contents (Elt F) → (⟨S16384x7x7x2, .f32⟩ : BufTy).Contents (Elt F)),
    nullary main_cst_22 (constant S_ .f32 0x00000000#32),
    binary main_v164 main_cst_22 main_v165 ((fun x v => Host.reduceAdd x v reducesTo_S16384x7x7x2_S16384x7x7_d3 h_S_) : (⟨S16384x7x7x2, .f32⟩ : BufTy).Contents (Elt F) → (⟨S_, .f32⟩ : BufTy).Contents (Elt F) → (⟨S16384x7x7, .f32⟩ : BufTy).Contents (Elt F)),
    unary main_arg1 main_v166 ((extractStridedSlice S16384x7x7x2 ![0, 0, 0, 5] · slices_S16384x7x7x30_S16384x7x7x2_0_0_0_5) : (⟨S16384x7x7x30, .f32⟩ : BufTy).Contents (Elt F) → (⟨S16384x7x7x2, .f32⟩ : BufTy).Contents (Elt F)),
    unary main_arg0 main_v167 ((extractStridedSlice S16384x7x7x2 ![0, 0, 0, 5] · slices_S16384x7x7x30_S16384x7x7x2_0_0_0_5) : (⟨S16384x7x7x30, .f32⟩ : BufTy).Contents (Elt F) → (⟨S16384x7x7x2, .f32⟩ : BufTy).Contents (Elt F)),
    binary main_v166 main_v167 main_v168 (subf : (⟨S16384x7x7x2, .f32⟩ : BufTy).Contents (Elt F) → (⟨S16384x7x7x2, .f32⟩ : BufTy).Contents (Elt F) → (⟨S16384x7x7x2, .f32⟩ : BufTy).Contents (Elt F)),
    binary main_v168 main_v168 main_v169 (mulf : (⟨S16384x7x7x2, .f32⟩ : BufTy).Contents (Elt F) → (⟨S16384x7x7x2, .f32⟩ : BufTy).Contents (Elt F) → (⟨S16384x7x7x2, .f32⟩ : BufTy).Contents (Elt F)),
    nullary main_cst_23 (constant S_ .f32 0x00000000#32),
    binary main_v169 main_cst_23 main_v170 ((fun x v => Host.reduceAdd x v reducesTo_S16384x7x7x2_S16384x7x7_d3 h_S_) : (⟨S16384x7x7x2, .f32⟩ : BufTy).Contents (Elt F) → (⟨S_, .f32⟩ : BufTy).Contents (Elt F) → (⟨S16384x7x7, .f32⟩ : BufTy).Contents (Elt F)),
    unary main_arg1 main_v171 ((extractStridedSlice S16384x7x7x2 ![0, 0, 0, 2] · slices_S16384x7x7x30_S16384x7x7x2_0_0_0_2) : (⟨S16384x7x7x30, .f32⟩ : BufTy).Contents (Elt F) → (⟨S16384x7x7x2, .f32⟩ : BufTy).Contents (Elt F)),
    unary main_v171 main_v172 (Host.sqrt : (⟨S16384x7x7x2, .f32⟩ : BufTy).Contents (Elt F) → (⟨S16384x7x7x2, .f32⟩ : BufTy).Contents (Elt F)),
    unary main_arg0 main_v173 ((extractStridedSlice S16384x7x7x2 ![0, 0, 0, 2] · slices_S16384x7x7x30_S16384x7x7x2_0_0_0_2) : (⟨S16384x7x7x30, .f32⟩ : BufTy).Contents (Elt F) → (⟨S16384x7x7x2, .f32⟩ : BufTy).Contents (Elt F)),
    unary main_v173 main_v174 (Host.sqrt : (⟨S16384x7x7x2, .f32⟩ : BufTy).Contents (Elt F) → (⟨S16384x7x7x2, .f32⟩ : BufTy).Contents (Elt F)),
    binary main_v172 main_v174 main_v175 (subf : (⟨S16384x7x7x2, .f32⟩ : BufTy).Contents (Elt F) → (⟨S16384x7x7x2, .f32⟩ : BufTy).Contents (Elt F) → (⟨S16384x7x7x2, .f32⟩ : BufTy).Contents (Elt F)),
    binary main_v175 main_v175 main_v176 (mulf : (⟨S16384x7x7x2, .f32⟩ : BufTy).Contents (Elt F) → (⟨S16384x7x7x2, .f32⟩ : BufTy).Contents (Elt F) → (⟨S16384x7x7x2, .f32⟩ : BufTy).Contents (Elt F)),
    nullary main_cst_24 (constant S_ .f32 0x00000000#32),
    binary main_v176 main_cst_24 main_v177 ((fun x v => Host.reduceAdd x v reducesTo_S16384x7x7x2_S16384x7x7_d3 h_S_) : (⟨S16384x7x7x2, .f32⟩ : BufTy).Contents (Elt F) → (⟨S_, .f32⟩ : BufTy).Contents (Elt F) → (⟨S16384x7x7, .f32⟩ : BufTy).Contents (Elt F)),
    unary main_arg1 main_v178 ((extractStridedSlice S16384x7x7x2 ![0, 0, 0, 7] · slices_S16384x7x7x30_S16384x7x7x2_0_0_0_7) : (⟨S16384x7x7x30, .f32⟩ : BufTy).Contents (Elt F) → (⟨S16384x7x7x2, .f32⟩ : BufTy).Contents (Elt F)),
    unary main_v178 main_v179 (Host.sqrt : (⟨S16384x7x7x2, .f32⟩ : BufTy).Contents (Elt F) → (⟨S16384x7x7x2, .f32⟩ : BufTy).Contents (Elt F)),
    unary main_arg0 main_v180 ((extractStridedSlice S16384x7x7x2 ![0, 0, 0, 7] · slices_S16384x7x7x30_S16384x7x7x2_0_0_0_7) : (⟨S16384x7x7x30, .f32⟩ : BufTy).Contents (Elt F) → (⟨S16384x7x7x2, .f32⟩ : BufTy).Contents (Elt F)),
    unary main_v180 main_v181 (Host.sqrt : (⟨S16384x7x7x2, .f32⟩ : BufTy).Contents (Elt F) → (⟨S16384x7x7x2, .f32⟩ : BufTy).Contents (Elt F)),
    binary main_v179 main_v181 main_v182 (subf : (⟨S16384x7x7x2, .f32⟩ : BufTy).Contents (Elt F) → (⟨S16384x7x7x2, .f32⟩ : BufTy).Contents (Elt F) → (⟨S16384x7x7x2, .f32⟩ : BufTy).Contents (Elt F)),
    binary main_v182 main_v182 main_v183 (mulf : (⟨S16384x7x7x2, .f32⟩ : BufTy).Contents (Elt F) → (⟨S16384x7x7x2, .f32⟩ : BufTy).Contents (Elt F) → (⟨S16384x7x7x2, .f32⟩ : BufTy).Contents (Elt F)),
    nullary main_cst_25 (constant S_ .f32 0x00000000#32),
    binary main_v183 main_cst_25 main_v184 ((fun x v => Host.reduceAdd x v reducesTo_S16384x7x7x2_S16384x7x7_d3 h_S_) : (⟨S16384x7x7x2, .f32⟩ : BufTy).Contents (Elt F) → (⟨S_, .f32⟩ : BufTy).Contents (Elt F) → (⟨S16384x7x7, .f32⟩ : BufTy).Contents (Elt F)),
    unary main_arg1 main_v185 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v185 main_v186 rfl shapeCasts_S16384x7x7x1_S16384x7x7,
    unary main_arg0 main_v187 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v187 main_v188 rfl shapeCasts_S16384x7x7x1_S16384x7x7,
    binary main_v186 main_v188 main_v189 (subf : (⟨S16384x7x7, .f32⟩ : BufTy).Contents (Elt F) → (⟨S16384x7x7, .f32⟩ : BufTy).Contents (Elt F) → (⟨S16384x7x7, .f32⟩ : BufTy).Contents (Elt F)),
    binary main_v189 main_v189 main_v190 (mulf : (⟨S16384x7x7, .f32⟩ : BufTy).Contents (Elt F) → (⟨S16384x7x7, .f32⟩ : BufTy).Contents (Elt F) → (⟨S16384x7x7, .f32⟩ : BufTy).Contents (Elt F)),
    unary main_arg1 main_v191 ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)),
    reshape main_v191 main_v192 rfl shapeCasts_S16384x7x7x1_S16384x7x7,
    unary main_arg0 main_v193 ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)),
    reshape main_v193 main_v194 rfl shapeCasts_S16384x7x7x1_S16384x7x7,
    binary main_v192 main_v194 main_v195 (subf : (⟨S16384x7x7, .f32⟩ : BufTy).Contents (Elt F) → (⟨S16384x7x7, .f32⟩ : BufTy).Contents (Elt F) → (⟨S16384x7x7, .f32⟩ : BufTy).Contents (Elt F)),
    binary main_v195 main_v195 main_v196 (mulf : (⟨S16384x7x7, .f32⟩ : BufTy).Contents (Elt F) → (⟨S16384x7x7, .f32⟩ : BufTy).Contents (Elt F) → (⟨S16384x7x7, .f32⟩ : BufTy).Contents (Elt F)),
    unary main_arg0 main_v197 ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)),
    reshape main_v197 main_v198 rfl shapeCasts_S16384x7x7x1_S16384x7x7,
    binary main_v198 main_v198 main_v199 (mulf : (⟨S16384x7x7, .f32⟩ : BufTy).Contents (Elt F) → (⟨S16384x7x7, .f32⟩ : BufTy).Contents (Elt F) → (⟨S16384x7x7, .f32⟩ : BufTy).Contents (Elt F)),
    unary main_arg0 main_v200 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v200 main_v201 rfl shapeCasts_S16384x7x7x1_S16384x7x7,
    binary main_v201 main_v201 main_v202 (mulf : (⟨S16384x7x7, .f32⟩ : BufTy).Contents (Elt F) → (⟨S16384x7x7, .f32⟩ : BufTy).Contents (Elt F) → (⟨S16384x7x7, .f32⟩ : BufTy).Contents (Elt F)),
    unary main_v3 main_v203 (uitofp .f32 : (⟨S16384x7x7, .i1⟩ : BufTy).Contents (Elt F) → (⟨S16384x7x7, .f32⟩ : BufTy).Contents (Elt F)),
    TRef.ternary (TRef.of (T := ⟨S16384x7x7, .i1⟩) main_v160) (TRef.of (T := ⟨S16384x7x7, .f32⟩) main_v165) (TRef.of (T := ⟨S16384x7x7, .f32⟩) main_v170) (TRef.of (T := ⟨S16384x7x7, .f32⟩) main_v204) select,
    binary main_v203 main_v204 main_v205 (mulf : (⟨S16384x7x7, .f32⟩ : BufTy).Contents (Elt F) → (⟨S16384x7x7, .f32⟩ : BufTy).Contents (Elt F) → (⟨S16384x7x7, .f32⟩ : BufTy).Contents (Elt F)),
    nullary main_cst_26 (constant S_ .f32 0x00000000#32),
    binary main_v205 main_cst_26 main_v206 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    nullary main_cst_27 (constant S_ .f32 0x40A00000#32),
    binary main_cst_27 main_v206 main_v207 (mulf : (⟨S_, .f32⟩ : BufTy).Contents (Elt F) → (⟨S_, .f32⟩ : BufTy).Contents (Elt F) → (⟨S_, .f32⟩ : BufTy).Contents (Elt F)),
    TRef.ternary (TRef.of (T := ⟨S16384x7x7, .i1⟩) main_v160) (TRef.of (T := ⟨S16384x7x7, .f32⟩) main_v177) (TRef.of (T := ⟨S16384x7x7, .f32⟩) main_v184) (TRef.of (T := ⟨S16384x7x7, .f32⟩) main_v208) select,
    binary main_v203 main_v208 main_v209 (mulf : (⟨S16384x7x7, .f32⟩ : BufTy).Contents (Elt F) → (⟨S16384x7x7, .f32⟩ : BufTy).Contents (Elt F) → (⟨S16384x7x7, .f32⟩ : BufTy).Contents (Elt F)),
    nullary main_cst_28 (constant S_ .f32 0x00000000#32) ]

set_option maxRecDepth 8192 in
set_option maxHeartbeats 4000000 in
theorem part3_eq (c : Dev nD) : main_part3 (F := F) c = seq ops3 := rfl

set_option maxRecDepth 8192 in
theorem ops3_sub : (ops3 : List (HloOp τ sig (Elt F))).Forall fun op => op.bufs ⊆ tcRefs τ sig :=
  ⟨unary_bufs_sub .., binary_bufs_sub .., binary_bufs_sub .., binary_bufs_sub .., unary_bufs_sub ..,
    unary_bufs_sub .., binary_bufs_sub .., binary_bufs_sub .., nullary_bufs_sub .., binary_bufs_sub ..,
    unary_bufs_sub .., unary_bufs_sub .., binary_bufs_sub .., binary_bufs_sub .., nullary_bufs_sub ..,
    binary_bufs_sub .., unary_bufs_sub .., unary_bufs_sub .., unary_bufs_sub .., unary_bufs_sub ..,
    binary_bufs_sub .., binary_bufs_sub .., nullary_bufs_sub .., binary_bufs_sub .., unary_bufs_sub ..,
    unary_bufs_sub .., unary_bufs_sub .., unary_bufs_sub .., binary_bufs_sub .., binary_bufs_sub ..,
    nullary_bufs_sub .., binary_bufs_sub .., unary_bufs_sub .., reshape_bufs_sub .., unary_bufs_sub ..,
    reshape_bufs_sub .., binary_bufs_sub .., binary_bufs_sub .., unary_bufs_sub .., reshape_bufs_sub ..,
    unary_bufs_sub .., reshape_bufs_sub .., binary_bufs_sub .., binary_bufs_sub .., unary_bufs_sub ..,
    reshape_bufs_sub .., binary_bufs_sub .., unary_bufs_sub .., reshape_bufs_sub .., binary_bufs_sub ..,
    unary_bufs_sub .., ternary_bufs_sub .., binary_bufs_sub .., nullary_bufs_sub .., binary_bufs_sub ..,
    nullary_bufs_sub .., binary_bufs_sub .., ternary_bufs_sub .., binary_bufs_sub .., nullary_bufs_sub ..⟩

set_option maxRecDepth 8192 in
theorem ops3_fresh : ∀ op ∈ (ops3 : List (HloOp τ sig (Elt F))), op.fresh = ∅ := by
  intro _ h; (repeat (cases h with | head => rfl | tail _ h => ?_)); exact nomatch h

set_option maxHeartbeats 4000000 in
/-- The operations of @main's statements 241 … 276, in order (a called function's operations in its call's place). -/
abbrev ops4 : List (HloOp τ sig (Elt F)) :=
  [ binary main_v209 main_cst_28 main_v210 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    nullary main_cst_29 (constant S_ .f32 0x40A00000#32),
    binary main_cst_29 main_v210 main_v211 (mulf : (⟨S_, .f32⟩ : BufTy).Contents (Elt F) → (⟨S_, .f32⟩ : BufTy).Contents (Elt F) → (⟨S_, .f32⟩ : BufTy).Contents (Elt F)),
    TRef.ternary (TRef.of (T := ⟨S16384x7x7, .i1⟩) main_v160) (TRef.of (T := ⟨S16384x7x7, .f32⟩) main_v190) (TRef.of (T := ⟨S16384x7x7, .f32⟩) main_v196) (TRef.of (T := ⟨S16384x7x7, .f32⟩) main_v212) select,
    binary main_v203 main_v212 main_v213 (mulf : (⟨S16384x7x7, .f32⟩ : BufTy).Contents (Elt F) → (⟨S16384x7x7, .f32⟩ : BufTy).Contents (Elt F) → (⟨S16384x7x7, .f32⟩ : BufTy).Contents (Elt F)),
    nullary main_cst_30 (constant S_ .f32 0x00000000#32),
    binary main_v213 main_cst_30 main_v214 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    TRef.ternary (TRef.of (T := ⟨S16384x7x7, .i1⟩) main_v160) (TRef.of (T := ⟨S16384x7x7, .f32⟩) main_v199) (TRef.of (T := ⟨S16384x7x7, .f32⟩) main_v202) (TRef.of (T := ⟨S16384x7x7, .f32⟩) main_v215) select,
    unary main_arg0 main_v216 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v216 main_v217 rfl shapeCasts_S16384x7x7x1_S16384x7x7,
    binary main_v217 main_v217 main_v218 (mulf : (⟨S16384x7x7, .f32⟩ : BufTy).Contents (Elt F) → (⟨S16384x7x7, .f32⟩ : BufTy).Contents (Elt F) → (⟨S16384x7x7, .f32⟩ : BufTy).Contents (Elt F)),
    unary main_arg0 main_v219 ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)),
    reshape main_v219 main_v220 rfl shapeCasts_S16384x7x7x1_S16384x7x7,
    binary main_v220 main_v220 main_v221 (mulf : (⟨S16384x7x7, .f32⟩ : BufTy).Contents (Elt F) → (⟨S16384x7x7, .f32⟩ : BufTy).Contents (Elt F) → (⟨S16384x7x7, .f32⟩ : BufTy).Contents (Elt F)),
    binary main_v218 main_v221 main_v222 (addf : (⟨S16384x7x7, .f32⟩ : BufTy).Contents (Elt F) → (⟨S16384x7x7, .f32⟩ : BufTy).Contents (Elt F) → (⟨S16384x7x7, .f32⟩ : BufTy).Contents (Elt F)),
    TRef.ternary (TRef.of (T := ⟨S16384x7x7, .i1⟩) main_v3) (TRef.of (T := ⟨S16384x7x7, .f32⟩) main_v215) (TRef.of (T := ⟨S16384x7x7, .f32⟩) main_v222) (TRef.of (T := ⟨S16384x7x7, .f32⟩) main_v223) select,
    nullary main_cst_31 (constant S_ .f32 0x00000000#32),
    binary main_v223 main_cst_31 main_v224 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    nullary main_cst_32 (constant S_ .f32 0x3F000000#32),
    binary main_cst_32 main_v224 main_v225 (mulf : (⟨S_, .f32⟩ : BufTy).Contents (Elt F) → (⟨S_, .f32⟩ : BufTy).Contents (Elt F) → (⟨S_, .f32⟩ : BufTy).Contents (Elt F)),
    unary main_arg1 main_v226 ((extractStridedSlice S16384x7x7x20 ![0, 0, 0, 10] · slices_S16384x7x7x30_S16384x7x7x20_0_0_0_10) : (⟨S16384x7x7x30, .f32⟩ : BufTy).Contents (Elt F) → (⟨S16384x7x7x20, .f32⟩ : BufTy).Contents (Elt F)),
    unary main_arg0 main_v227 ((extractStridedSlice S16384x7x7x20 ![0, 0, 0, 10] · slices_S16384x7x7x30_S16384x7x7x20_0_0_0_10) : (⟨S16384x7x7x30, .f32⟩ : BufTy).Contents (Elt F) → (⟨S16384x7x7x20, .f32⟩ : BufTy).Contents (Elt F)),
    binary main_v226 main_v227 main_v228 (subf : (⟨S16384x7x7x20, .f32⟩ : BufTy).Contents (Elt F) → (⟨S16384x7x7x20, .f32⟩ : BufTy).Contents (Elt F) → (⟨S16384x7x7x20, .f32⟩ : BufTy).Contents (Elt F)),
    binary main_v228 main_v228 main_v229 (mulf : (⟨S16384x7x7x20, .f32⟩ : BufTy).Contents (Elt F) → (⟨S16384x7x7x20, .f32⟩ : BufTy).Contents (Elt F) → (⟨S16384x7x7x20, .f32⟩ : BufTy).Contents (Elt F)),
    nullary main_cst_33 (constant S_ .f32 0x00000000#32),
    binary main_v229 main_cst_33 main_v230 ((fun x v => Host.reduceAdd x v reducesTo_S16384x7x7x20_S16384x7x7_d3 h_S_) : (⟨S16384x7x7x20, .f32⟩ : BufTy).Contents (Elt F) → (⟨S_, .f32⟩ : BufTy).Contents (Elt F) → (⟨S16384x7x7, .f32⟩ : BufTy).Contents (Elt F)),
    binary main_v203 main_v230 main_v231 (mulf : (⟨S16384x7x7, .f32⟩ : BufTy).Contents (Elt F) → (⟨S16384x7x7, .f32⟩ : BufTy).Contents (Elt F) → (⟨S16384x7x7, .f32⟩ : BufTy).Contents (Elt F)),
    nullary main_cst_34 (constant S_ .f32 0x00000000#32),
    binary main_v231 main_cst_34 main_v232 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    binary main_v207 main_v211 main_v233 (addf : (⟨S_, .f32⟩ : BufTy).Contents (Elt F) → (⟨S_, .f32⟩ : BufTy).Contents (Elt F) → (⟨S_, .f32⟩ : BufTy).Contents (Elt F)),
    binary main_v233 main_v214 main_v234 (addf : (⟨S_, .f32⟩ : BufTy).Contents (Elt F) → (⟨S_, .f32⟩ : BufTy).Contents (Elt F) → (⟨S_, .f32⟩ : BufTy).Contents (Elt F)),
    binary main_v234 main_v225 main_v235 (addf : (⟨S_, .f32⟩ : BufTy).Contents (Elt F) → (⟨S_, .f32⟩ : BufTy).Contents (Elt F) → (⟨S_, .f32⟩ : BufTy).Contents (Elt F)),
    binary main_v235 main_v232 main_v236 (addf : (⟨S_, .f32⟩ : BufTy).Contents (Elt F) → (⟨S_, .f32⟩ : BufTy).Contents (Elt F) → (⟨S_, .f32⟩ : BufTy).Contents (Elt F)),
    nullary main_cst_35 (constant S_ .f32 0x46800000#32),
    binary main_v236 main_cst_35 main_v237 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem part4_eq (c : Dev nD) : main_part4 (F := F) c = seq ops4 := rfl

set_option maxRecDepth 8192 in
theorem ops4_sub : (ops4 : List (HloOp τ sig (Elt F))).Forall fun op => op.bufs ⊆ tcRefs τ sig :=
  ⟨binary_bufs_sub .., nullary_bufs_sub .., binary_bufs_sub .., ternary_bufs_sub .., binary_bufs_sub ..,
    nullary_bufs_sub .., binary_bufs_sub .., ternary_bufs_sub .., unary_bufs_sub .., reshape_bufs_sub ..,
    binary_bufs_sub .., unary_bufs_sub .., reshape_bufs_sub .., binary_bufs_sub .., binary_bufs_sub ..,
    ternary_bufs_sub .., nullary_bufs_sub .., binary_bufs_sub .., nullary_bufs_sub .., binary_bufs_sub ..,
    unary_bufs_sub .., unary_bufs_sub .., binary_bufs_sub .., binary_bufs_sub .., nullary_bufs_sub ..,
    binary_bufs_sub .., binary_bufs_sub .., nullary_bufs_sub .., binary_bufs_sub .., binary_bufs_sub ..,
    binary_bufs_sub .., binary_bufs_sub .., binary_bufs_sub .., nullary_bufs_sub .., binary_bufs_sub ..⟩

set_option maxRecDepth 8192 in
theorem ops4_fresh : ∀ op ∈ (ops4 : List (HloOp τ sig (Elt F))), op.fresh = ∅ := by
  intro _ h; (repeat (cases h with | head => rfl | tail _ h => ?_)); exact nomatch h

/-- All of @main's operations: the five stretches joined. -/
abbrev ops : List (HloOp τ sig (Elt F)) := ops0 ++ (ops1 ++ (ops2 ++ (ops3 ++ ops4)))

/-- @main is the sequence of its operations. -/
theorem main_eq (c : Dev nD) : main (F := F) c = seq ops := by
  unfold main
  rw [part0_eq, part1_eq, part2_eq, part3_eq, part4_eq]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops0_sub op h
    rcases List.mem_append.mp h with h | h
    · exact List.forall_iff_forall_mem.mp ops1_sub op h
    rcases List.mem_append.mp h with h | h
    · exact List.forall_iff_forall_mem.mp ops2_sub op h
    rcases List.mem_append.mp h with h | h
    · exact List.forall_iff_forall_mem.mp ops3_sub op h
    · exact List.forall_iff_forall_mem.mp ops4_sub op h

theorem ops_fresh : ∀ op ∈ (ops : List (HloOp τ sig (Elt F))), op.fresh = ∅ := fun op h => by
  rcases List.mem_append.mp h with h | h
  · exact ops0_fresh op h
  rcases List.mem_append.mp h with h | h
  · exact ops1_fresh op h
  rcases List.mem_append.mp h with h | h
  · exact ops2_fresh op h
  rcases List.mem_append.mp h with h | h
  · exact ops3_fresh op h
  · exact ops4_fresh op h

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The contents after all of @main: the five stretches' folds composed. -/
theorem after_ops (V : Valuation τ sig (Elt F)) :
    after ops V = after ops4 (after ops3 (after ops2 (after ops1 (after ops0 V)))) := by
  simp only [ops, after_append]

/-- On every device, for any float values, from any memory with zero counters: every weakly fair execution of @main
    terminates, and every buffer ends at the fold of the operations' results over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RunW

end
-- ==== Proof.LibRank4.lean ====
/-
  Layout operations and the last-axis sum of a rank-4 array `[a, b, c, d]` — a batch of grids of feature rows — read at
  coordinates.

  A slice of the last (feature) axis from column `o` reads, at `(i, j, k, q)`, the source at `(i, j, k, o + q)`; an
  `[a, b, c, 1]` array cast to `[a, b, c]` reads, at `(i, j, k)`, its one column at `(i, j, k, 0)`; and the host's float
  sum over the last axis reads, at `(i, j, k)`, the initial value plus the sum over `q` of the entries `(i, j, k, q)`. The
  library states each over an index the caller names, with the coordinates' arithmetic owed; here the indices are written
  by their coordinates and the arithmetic is done. Library imports only.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRank4

open Idealize.ShloMosaic Idealize.ShloMosaic.ValueIdx

variable {α : Type}

/-- A rank-4 array cut along its last axis from `o` reads, at `(i, j, k, q)`, the source at `(i, j, k, o + q)`. -/
theorem slice4_axis3_eq {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (i : Fin n0) (j : Fin n1) (k : Fin n2) (q : Fin m) :
    extractStridedSlice ⟨4, ![n0, n1, n2, m]⟩ ![0, 0, 0, o] X h (ix4 i j k q)
      = X (ix4 i j k ⟨o + q.val, Nat.lt_of_lt_of_le (Nat.add_lt_add_left q.isLt o) (h.2 3)⟩) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => rfl)

/-- An `[a, b, c, 1]` array cast to `[a, b, c]` reads, at `(i, j, k)`, the operand at `(i, j, k, 0)`: both indices have
    row-major position `(i·b + j)·c + k`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    omega)

/-- Index `(i, j, k)` with the last coordinate `q` put back is the entry `(i, j, k, q)`. -/
theorem lift_last4 {n0 n1 n2 n3 : ℕ} (h : (⟨4, ![n0, n1, n2, n3]⟩ : Shape).Reduces [3] ⟨3, ![n0, n1, n2]⟩)
    (i : Fin n0) (j : Fin n1) (k : Fin n2) (q : Fin n3) : h.lift (ix3 i j k) q = ix4 i j k q := by
  funext c; apply Fin.ext
  fin_cases c <;> rfl

/-- The host's float sum of a rank-4 array over its last axis, at `(i, j, k)`: the initial value plus the entries' sum. -/
theorem hostReduceAdd_last4 {n0 n1 n2 n3 : ℕ} {u : Shape} (x : FVec Ideal ⟨4, ![n0, n1, n2, n3]⟩ .f32)
    (init : u.Idx → EReal) (h' : (⟨4, ![n0, n1, n2, n3]⟩ : Shape).ReducesTo [3] ⟨3, ![n0, n1, n2]⟩)
    (h : (⟨4, ![n0, n1, n2, n3]⟩ : Shape).Reduces [3] ⟨3, ![n0, n1, n2]⟩) (hu : 0 < u.numel)
    (i : Fin n0) (j : Fin n1) (k : Fin n2) :
    Host.reduceAdd (F := Ideal) (φ := .f32) x init h' hu (ix3 i j k)
      = init (Shape.Idx.first hu) + ∑ q : Fin n3, x (ix4 i j k q) := by
  unfold Host.reduceAdd
  rw [Ideal.hostReduceAdd_def]
  exact (Ideal.hostReduceAdd_single h' h x _ (ix3 i j k)).trans
    (congrArg (_ + ·) (Finset.sum_congr rfl fun q _ => congrArg x (lift_last4 h i j k q)))

end Cert.LibRank4

end
-- ==== Proof.RefCell.lean ====
/-
  The reference's per-cell arrays, read at a cell, on the extended reals.

  The reference works on arrays `[16384, 7, 7]` whose entry `(a, b, c)` depends only on the cell's two rows of thirty
  numbers — the argument arrays at `(a, b, c, ·)`. Each of the five arrays it sums over all cells is read here at
  `(a, b, c)` as the scalar expression of that cell (module RowSpec): the slices of the feature axis by their offsets, the
  casts that drop the one-column axis, the sums over the last axis as finite sums, the rest entry by entry through the
  read-at-an-index lemmas of the operations. The reference halves by dividing by two where the kernel multiplies by one
  half: the same on every extended real (LossConsts).
-/
import proofs.«181994_j63677185130639_2_alg».proof.Proof.RefReadP
import proofs.«181994_j63677185130639_2_alg».proof.Proof.RowSpec
import proofs.«181994_j63677185130639_2_alg».proof.Proof.LossConsts
import proofs.«181994_j63677185130639_2_alg».proof.Proof.LibRank4

noncomputable section

open Idealize.ShloMosaic Idealize.ShloMosaic.ValueIdx

namespace Cert.ReferenceIdeal.Cell

open Cert.ReferenceIdeal Cert.ReferenceIdeal.Gen Cert.ReferenceIdeal.ReadP Cert

/-- An argument array: a batch of 7×7 grids of rows of thirty. -/
abbrev Arr : Type := (⟨S16384x7x7x30, .f32⟩ : BufTy).Contents (Elt Ideal)

/-- The row of cell `(a, b, c)`. -/
def rowAt (x : Arr) (a : Fin 16384) (b c : Fin 7) : Fin 30 → EReal := fun k => x (ix4 a b c k)

/-- The host's sum over a last axis of two, at a cell. -/
theorem sum2 (x : FVec Ideal S16384x7x7x2 .f32) (init : S_.Idx → EReal) (a : Fin 16384) (b c : Fin 7) :
    Host.reduceAdd (F := Ideal) (φ := .f32) x init reducesTo_S16384x7x7x2_S16384x7x7_d3 h_S_ (ix3 a b c)
      = init (Shape.Idx.first h_S_) + ∑ q : Fin 2, x (ix4 a b c q) :=
  LibRank4.hostReduceAdd_last4 x init _ (by decide) _ a b c

/-- The host's sum over a last axis of twenty, at a cell. -/
theorem sum20 (x : FVec Ideal S16384x7x7x20 .f32) (init : S_.Idx → EReal) (a : Fin 16384) (b c : Fin 7) :
    Host.reduceAdd (F := Ideal) (φ := .f32) x init reducesTo_S16384x7x7x20_S16384x7x7_d3 h_S_ (ix3 a b c)
      = init (Shape.Idx.first h_S_) + ∑ q : Fin 20, x (ix4 a b c q) :=
  LibRank4.hostReduceAdd_last4 x init _ (by decide) _ a b c

variable (x0 x1 : Arr) (a : Fin 16384) (b c : Fin 7)

set_option maxHeartbeats 4000000 in
/-- Which box is responsible in the cell: the two overlap ratios compared. -/
theorem first_cell : val_main_v160 (F := Ideal) x0 x1 (ix3 a b c) = RowSpec.first (rowAt x0 a b c) (rowAt x1 a b c) := by
  simp only [
    val_main_cst_apply, val_main_v2_apply, val_main_v3_apply, val_main_cst_0_apply, val_main_v10_apply,
    val_main_v11_apply, val_main_v12_apply, val_main_cst_1_apply, val_main_v17_apply, val_main_v18_apply,
    val_main_v19_apply, val_main_cst_2_apply, val_main_v24_apply, val_main_v25_apply, val_main_v26_apply,
    val_main_cst_3_apply, val_main_v31_apply, val_main_v32_apply, val_main_v33_apply, val_main_cst_4_apply,
    val_main_v38_apply, val_main_v39_apply, val_main_v40_apply, val_main_cst_5_apply, val_main_v45_apply,
    val_main_v46_apply, val_main_v47_apply, val_main_cst_6_apply, val_main_v52_apply, val_main_v53_apply,
    val_main_v54_apply, val_main_cst_7_apply, val_main_v59_apply, val_main_v60_apply, val_main_v61_apply,
    val_main_v62_apply, val_main_v63_apply, val_main_v64_apply, val_main_cst_8_apply, val_main_call0_v0_apply,
    val_main_call0_v1_apply, val_main_v65_apply, val_main_v66_apply, val_main_v67_apply, val_main_v68_apply,
    val_main_cst_9_apply, val_main_call1_v0_apply, val_main_call1_v1_apply, val_main_v69_apply, val_main_v70_apply,
    val_main_v71_apply, val_main_v72_apply, val_main_v73_apply, val_main_v74_apply, val_main_v75_apply,
    val_main_v76_apply, val_main_v77_apply, val_main_v78_apply, val_main_cst_10_apply, val_main_v79_apply,
    val_main_v80_apply, val_main_v81_apply, val_main_cst_11_apply, val_main_v88_apply, val_main_v89_apply,
    val_main_v90_apply, val_main_cst_12_apply, val_main_v95_apply, val_main_v96_apply, val_main_v97_apply,
    val_main_cst_13_apply, val_main_v102_apply, val_main_v103_apply, val_main_v104_apply, val_main_cst_14_apply,
    val_main_v109_apply, val_main_v110_apply, val_main_v111_apply, val_main_cst_15_apply, val_main_v116_apply,
    val_main_v117_apply, val_main_v118_apply, val_main_cst_16_apply, val_main_v123_apply, val_main_v124_apply,
    val_main_v125_apply, val_main_cst_17_apply, val_main_v130_apply, val_main_v131_apply, val_main_v132_apply,
    val_main_cst_18_apply, val_main_v137_apply, val_main_v138_apply, val_main_v139_apply, val_main_v140_apply,
    val_main_v141_apply, val_main_v142_apply, val_main_cst_19_apply, val_main_call2_v0_apply,
    val_main_call2_v1_apply, val_main_v143_apply, val_main_v144_apply, val_main_v145_apply, val_main_v146_apply,
    val_main_cst_20_apply, val_main_call3_v0_apply, val_main_call3_v1_apply, val_main_v147_apply,
    val_main_v148_apply, val_main_v149_apply, val_main_v150_apply, val_main_v151_apply, val_main_v152_apply,
    val_main_v153_apply, val_main_v154_apply, val_main_v155_apply, val_main_v156_apply, val_main_cst_21_apply,
    val_main_v157_apply, val_main_v158_apply, val_main_v159_apply, val_main_v160_apply,
    val_main_v0, val_main_v1, val_main_v4, val_main_v5, val_main_v6, val_main_v7, val_main_v8, val_main_v9,
    val_main_v13, val_main_v14, val_main_v15, val_main_v16, val_main_v20, val_main_v21, val_main_v22, val_main_v23,
    val_main_v27, val_main_v28, val_main_v29, val_main_v30, val_main_v34, val_main_v35, val_main_v36, val_main_v37,
    val_main_v41, val_main_v42, val_main_v43, val_main_v44, val_main_v48, val_main_v49, val_main_v50, val_main_v51,
    val_main_v55, val_main_v56, val_main_v57, val_main_v58, val_main_v82, val_main_v83, val_main_v84, val_main_v85,
    val_main_v86, val_main_v87, val_main_v91, val_main_v92, val_main_v93, val_main_v94, val_main_v98, val_main_v99,
    val_main_v100, val_main_v101, val_main_v105, val_main_v106, val_main_v107, val_main_v108, val_main_v112,
    val_main_v113, val_main_v114, val_main_v115, val_main_v119, val_main_v120, val_main_v121, val_main_v122,
    val_main_v126, val_main_v127, val_main_v128, val_main_v129, val_main_v133, val_main_v134, val_main_v135,
    val_main_v136,
    LibRank4.slice4_axis3_eq, LibRank4.shapeCast_abc1_abc_apply, Ideal.hostDivf_def, Ideal.ofBits_def,
    LossConsts.div_two_eq_mul_half]
  rfl

/-- The simp set of the five summed arrays: every operation after the comparison of the overlap ratios, and the object bit. -/
macro "cell_simp" : tactic => `(tactic| simp only [
    val_main_cst_apply, val_main_v2_apply, val_main_v3_apply, val_main_v163_apply, val_main_v164_apply,
    val_main_cst_22_apply, val_main_v168_apply, val_main_v169_apply, val_main_cst_23_apply, val_main_v172_apply,
    val_main_v174_apply, val_main_v175_apply, val_main_v176_apply, val_main_cst_24_apply, val_main_v179_apply,
    val_main_v181_apply, val_main_v182_apply, val_main_v183_apply, val_main_cst_25_apply, val_main_v189_apply,
    val_main_v190_apply, val_main_v195_apply, val_main_v196_apply, val_main_v199_apply, val_main_v202_apply,
    val_main_v203_apply, val_main_v204_apply, val_main_v205_apply, val_main_cst_26_apply, val_main_cst_27_apply,
    val_main_v208_apply, val_main_v209_apply, val_main_cst_28_apply, val_main_cst_29_apply, val_main_v212_apply,
    val_main_v213_apply, val_main_cst_30_apply, val_main_v215_apply, val_main_v218_apply, val_main_v221_apply,
    val_main_v222_apply, val_main_v223_apply, val_main_cst_31_apply, val_main_cst_32_apply, val_main_v228_apply,
    val_main_v229_apply, val_main_cst_33_apply, val_main_v231_apply, val_main_cst_34_apply, val_main_cst_35_apply,
    val_main_v0, val_main_v1, val_main_v161, val_main_v162, val_main_v165, val_main_v166, val_main_v167,
    val_main_v170, val_main_v171, val_main_v173, val_main_v177, val_main_v178, val_main_v180, val_main_v184,
    val_main_v185, val_main_v186, val_main_v187, val_main_v188, val_main_v191, val_main_v192, val_main_v193,
    val_main_v194, val_main_v197, val_main_v198, val_main_v200, val_main_v201, val_main_v216, val_main_v217,
    val_main_v219, val_main_v220, val_main_v226, val_main_v227, val_main_v230,
    first_cell, sum2, sum20, LibRank4.slice4_axis3_eq, LibRank4.shapeCast_abc1_abc_apply, Ideal.hostDivf_def, Ideal.ofBits_def,
    Ideal.hostUnary_sqrt_def, LossConsts.zero_word_add])

set_option maxHeartbeats 4000000 in
/-- The gated centre term of the cell. -/
theorem xy_cell : val_main_v205 (F := Ideal) x0 x1 (ix3 a b c)
    = RowSpec.obj (rowAt x1 a b c) * RowSpec.xyTerm (rowAt x0 a b c) (rowAt x1 a b c) := by
  cell_simp
  rfl

set_option maxHeartbeats 4000000 in
/-- The gated size term of the cell. -/
theorem wh_cell : val_main_v209 (F := Ideal) x0 x1 (ix3 a b c)
    = RowSpec.obj (rowAt x1 a b c) * RowSpec.whTerm (rowAt x0 a b c) (rowAt x1 a b c) := by
  cell_simp
  rfl

set_option maxHeartbeats 4000000 in
/-- The gated confidence term of the cell. -/
theorem conf_cell : val_main_v213 (F := Ideal) x0 x1 (ix3 a b c)
    = RowSpec.obj (rowAt x1 a b c) * RowSpec.confTerm (rowAt x0 a b c) (rowAt x1 a b c) := by
  cell_simp
  rfl

set_option maxHeartbeats 4000000 in
/-- The no-object term of the cell. -/
theorem noobj_cell : val_main_v223 (F := Ideal) x0 x1 (ix3 a b c) = RowSpec.noobjTerm (rowAt x0 a b c) (rowAt x1 a b c) := by
  cell_simp
  rfl

set_option maxHeartbeats 4000000 in
/-- The gated class term of the cell. -/
theorem class_cell : val_main_v231 (F := Ideal) x0 x1 (ix3 a b c)
    = RowSpec.obj (rowAt x1 a b c) * RowSpec.classTerm (rowAt x0 a b c) (rowAt x1 a b c) := by
  cell_simp
  rfl

end Cert.ReferenceIdeal.Cell

end
-- ==== Proof.SumLaw.lean ====
/-
  The one algebraic law between the two arrangements of the loss.

  The kernel scales every cell's coordinate terms by 5 and its no-object term by 1/2 and then adds the cells up; the
  reference adds the cells' terms up, one sum per term, and scales the sums. On the extended reals a product does not
  distribute over a sum in general (⊤ + ⊥ is ⊥ by convention), but the product with a nonnegative FINITE factor does, so a
  finite sum may be scaled term by term; and sums of sums regroup freely, addition being commutative and associative. No
  finiteness of the cells' terms themselves is needed (a square root of a negative width is ⊥ here, and the law still holds).
-/
import Mathlib.Data.EReal.Inv
import Mathlib.Algebra.BigOperators.Group.Finset.Basic

namespace Cert.SumLaw

open scoped BigOperators

/-- A nonnegative finite factor goes inside a finite sum of extended reals. -/
theorem mul_sum {ι : Type*} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The cells' weighted totals add up to the weighted sums of the cells' terms: `a`, `b` the two coordinate terms
    (weight `c5`, gated by the object indicator `o`), `c` the confidence term, `d` the no-object term (weight `ch`),
    `e` the class term. -/
theorem total {ι : Type*} [Fintype ι] (c5 ch : EReal) (h5 : 0 ≤ c5) (h5t : c5 ≠ ⊤) (hh : 0 ≤ ch) (hht : ch ≠ ⊤)
    (o a b c d e : ι → EReal) :
    ∑ r, (((((c5 * o r) * a r + (c5 * o r) * b r) + o r * c r) + ch * d r) + o r * e r)
      = ((((c5 * ∑ r, o r * a r) + (c5 * ∑ r, o r * b r)) + ∑ r, o r * c r) + ch * ∑ r, d r) + ∑ r, o r * e r := by
  have ea : ∀ r, (c5 * o r) * a r = c5 * (o r * a r) := fun r => mul_assoc c5 (o r) (a r)
  have eb : ∀ r, (c5 * o r) * b r = c5 * (o r * b r) := fun r => mul_assoc c5 (o r) (b r)
  rw [mul_sum _ c5 h5 h5t, mul_sum _ c5 h5 h5t, mul_sum _ ch hh hht]
  simp only [Finset.sum_add_distrib, ea, eb]

end Cert.SumLaw
-- ==== Proof.Bridge.lean ====
/-
  The two arrangements of the loss are one number.

  The kernel's: the arguments reshaped to 802816 rows of thirty, every row's total (weights applied in the row) summed,
  from zero, over the batch size. The reference's: for each of the five terms the sum over the `16384 × 7 × 7` cells, from
  zero, the weights applied to the sums, the five added, over the batch size. Cell `(a, b, c)` is row `(7a + b)·7 + c` of
  the reshaped arrays (a reshape keeps row-major positions), which turns the sums over cells into sums over rows; the
  summation law (module SumLaw: a nonnegative finite weight goes inside a sum) then joins the two.
-/
import proofs.«181994_j63677185130639_2_alg».proof.Proof.RowSpec
import proofs.«181994_j63677185130639_2_alg».proof.Proof.SumLaw
import proofs.«181994_j63677185130639_2_alg».proof.Proof.LossConsts
import Idealize.ShloMosaic.Lib.Pipeline.Value
import Idealize.ShloMosaic.Lib.ValueIdx

noncomputable section

open Idealize.ShloMosaic Idealize.ShloMosaic.ValueIdx

namespace Cert.Bridge

open Cert

/-- An argument: a batch of 7×7 grids of rows of thirty. -/
abbrev S4 : Shape := ⟨4, ![16384, 7, 7, 30]⟩
/-- The cells. -/
abbrev S3 : Shape := ⟨3, ![16384, 7, 7]⟩
/-- An argument reshaped to rows. -/
abbrev S2 : Shape := ⟨2, ![802816, 30]⟩

/-- The row of a cell. -/
def cell (X : S4.Idx → EReal) (j : S3.Idx) : Fin 30 → EReal := fun k => X (ix4 (j 0 : Fin 16384) (j 1 : Fin 7) (j 2 : Fin 7) k)

/-- Row `n` of a reshaped argument. -/
def row (X2 : S2.Idx → EReal) (n : Fin 802816) : Fin 30 → EReal := fun k => X2 (ix2 n k)

/-- A cell's row number: its row-major position among the cells. -/
def rowNo : S3.Idx ≃ Fin 802816 where
  toFun j := ⟨((j 0).val * 7 + (j 1).val) * 7 + (j 2).val, by
    have h0 : (j 0).val < 16384 := (j 0).isLt
    have h1 : (j 1).val < 7 := (j 1).isLt
    have h2 : (j 2).val < 7 := (j 2).isLt
    omega⟩
  invFun n := ix3 (⟨n.val / 49, by have := n.isLt; omega⟩ : Fin 16384) (⟨n.val / 7 % 7, by omega⟩ : Fin 7)
    (⟨n.val % 7, by omega⟩ : Fin 7)
  left_inv j := by
    have h0 : (j 0).val < 16384 := (j 0).isLt
    have h1 : (j 1).val < 7 := (j 1).isLt
    have h2 : (j 2).val < 7 := (j 2).isLt
    funext a; apply Fin.ext
    match a with
    | ⟨0, _⟩ => show (((j 0).val * 7 + (j 1).val) * 7 + (j 2).val) / 49 = (j 0).val; omega
    | ⟨1, _⟩ => show (((j 0).val * 7 + (j 1).val) * 7 + (j 2).val) / 7 % 7 = (j 1).val; omega
    | ⟨2, _⟩ => show (((j 0).val * 7 + (j 1).val) * 7 + (j 2).val) % 7 = (j 2).val; omega
  right_inv n := by
    apply Fin.ext
    show (n.val / 49 * 7 + n.val / 7 % 7) * 7 + n.val % 7 = n.val
    omega

/-- A cell's row is its row of the reshaped array: the reshape keeps row-major positions. -/
theorem cell_eq_row (X : S4.Idx → EReal) (h : S4.ShapeCasts S2) (j : S3.Idx) :
    cell X j = row (shapeCast S2 X h) (rowNo j) := by
  funext k
  unfold cell row
  refine (shapeCast_apply X h _ _ ?_).symm
  rw [Shape.rowMajor_val_four, Shape.rowMajor_val_two]
  show (((j 0).val * 7 + (j 1).val) * 7 + (j 2).val) * 30 + k.val = (((j 0).val * 7 + (j 1).val) * 7 + (j 2).val) * 30 + k.val
  rfl

/-- A sum over the cells is the sum over the rows of the reshaped arrays. -/
theorem sum_cells (X L : S4.Idx → EReal) (h : S4.ShapeCasts S2) (f : (Fin 30 → EReal) → (Fin 30 → EReal) → EReal) :
    ∑ j : S3.Idx, f (cell X j) (cell L j) = ∑ n : Fin 802816, f (row (shapeCast S2 X h) n) (row (shapeCast S2 L h) n) := by
  rw [← Equiv.sum_comp rowNo]
  exact Finset.sum_congr rfl fun j _ => by rw [cell_eq_row X h j, cell_eq_row L h j]

/-- The kernel's arrangement. -/
def kernelScalar (X L : S4.Idx → EReal) (h : S4.ShapeCasts S2) : EReal :=
  Ideal.div (Ideal.ofBits .f32 0x00000000#32
      + ∑ n : Fin 802816, RowSpec.cellTotal (row (shapeCast S2 X h) n) (row (shapeCast S2 L h) n))
    (Ideal.ofBits .f32 0x46800000#32)

/-- The reference's arrangement (its sums' zero starting words already dropped). -/
def refScalar (X L : S4.Idx → EReal) : EReal :=
  Ideal.div
    (((((Ideal.ofBits .f32 0x40A00000#32 * ∑ j : S3.Idx, RowSpec.obj (cell L j) * RowSpec.xyTerm (cell X j) (cell L j))
        + (Ideal.ofBits .f32 0x40A00000#32 * ∑ j : S3.Idx, RowSpec.obj (cell L j) * RowSpec.whTerm (cell X j) (cell L j)))
        + ∑ j : S3.Idx, RowSpec.obj (cell L j) * RowSpec.confTerm (cell X j) (cell L j))
        + Ideal.ofBits .f32 0x3F000000#32 * ∑ j : S3.Idx, RowSpec.noobjTerm (cell X j) (cell L j))
        + ∑ j : S3.Idx, RowSpec.obj (cell L j) * RowSpec.classTerm (cell X j) (cell L j))
    (Ideal.ofBits .f32 0x46800000#32)

/-- The two arrangements agree, for any extended-real inputs. -/
theorem kernel_eq_ref (X L : S4.Idx → EReal) (h : S4.ShapeCasts S2) : kernelScalar X L h = refScalar X L := by
  unfold kernelScalar refScalar
  rw [LossConsts.zero_word_add]
  rw [sum_cells X L h (fun p l => RowSpec.obj l * RowSpec.xyTerm p l),
    sum_cells X L h (fun p l => RowSpec.obj l * RowSpec.whTerm p l),
    sum_cells X L h (fun p l => RowSpec.obj l * RowSpec.confTerm p l),
    sum_cells X L h (fun p l => RowSpec.noobjTerm p l),
    sum_cells X L h (fun p l => RowSpec.obj l * RowSpec.classTerm p l)]
  have h5 : (0 : EReal) ≤ Ideal.ofBits .f32 0x40A00000#32 := by
    rw [LossConsts.ofBits_five]; exact_mod_cast (by norm_num : (0 : ℝ) ≤ 5)
  have h5t : Ideal.ofBits .f32 0x40A00000#32 ≠ ⊤ := by rw [LossConsts.ofBits_five]; exact EReal.coe_ne_top _
  have hh : (0 : EReal) ≤ Ideal.ofBits .f32 0x3F000000#32 := by
    rw [LossConsts.ofBits_half]; exact_mod_cast (by norm_num : (0 : ℝ) ≤ 1 / 2)
  have hht : Ideal.ofBits .f32 0x3F000000#32 ≠ ⊤ := by rw [LossConsts.ofBits_half]; exact EReal.coe_ne_top _
  simp only [RowSpec.cellTotal]
  rw [SumLaw.total (Ideal.ofBits .f32 0x40A00000#32) (Ideal.ofBits .f32 0x3F000000#32) h5 h5t hh hht
    (fun n => RowSpec.obj (row (shapeCast S2 L h) n))
    (fun n => RowSpec.xyTerm (row (shapeCast S2 X h) n) (row (shapeCast S2 L h) n))
    (fun n => RowSpec.whTerm (row (shapeCast S2 X h) n) (row (shapeCast S2 L h) n))
    (fun n => RowSpec.confTerm (row (shapeCast S2 X h) n) (row (shapeCast S2 L h) n))
    (fun n => RowSpec.noobjTerm (row (shapeCast S2 X h) n) (row (shapeCast S2 L h) n))
    (fun n => RowSpec.classTerm (row (shapeCast S2 X h) n) (row (shapeCast S2 L h) n))]

end Cert.Bridge

end
-- ==== Proof.RefValue.lean ====
/-
  The reference's run read back, and its result as the reference's arrangement of the loss.

  The run (module RefRunW) ends with every buffer at the fold of the 283 operations over the launch contents. Opening
  the fold at the result buffer gives the operations' composed term of the two arguments — the last stage of the
  one-operation-at-a-time reading (the read module's `val_main_v237`) — and at the arguments themselves it gives them
  back, no operation writing them. At its one index the result is the five sums over the cells, weighted, added and
  divided by the batch size: `Bridge.refScalar`.
-/
import proofs.«181994_j63677185130639_2_alg».proof.Proof.RefRunW
import proofs.«181994_j63677185130639_2_alg».proof.Proof.RefCell
import proofs.«181994_j63677185130639_2_alg».proof.Proof.Bridge

noncomputable section

open Idealize.ShloMosaic Idealize.ShloMosaic.TcCoe Idealize.SL.Sem Idealize.ShloMosaic.StableHlo Idealize.ShloMosaic.ValueIdx

namespace Cert.ReferenceIdeal.Final

open Cert.ReferenceIdeal Cert.ReferenceIdeal.Gen Cert.ReferenceIdeal.RunW Cert.ReferenceIdeal.ReadP Cert.ReferenceIdeal.Cell Cert

variable {F : FTy → Type} [FloatOps F]

set_option maxRecDepth 8192 in
set_option maxHeartbeats 200000000 in
/-- No operation writes the first argument. -/
theorem after_arg0 (V : Valuation τ sig (Elt F)) :
    after ops V (Proc.devRef .tc main_arg0) = V (Proc.devRef .tc main_arg0) := by
  rw [after_ops]
  after_results_simp

set_option maxRecDepth 8192 in
set_option maxHeartbeats 200000000 in
/-- No operation writes the second argument. -/
theorem after_arg1 (V : Valuation τ sig (Elt F)) :
    after ops V (Proc.devRef .tc main_arg1) = V (Proc.devRef .tc main_arg1) := by
  rw [after_ops]
  after_results_simp

set_option maxRecDepth 16384 in
set_option maxHeartbeats 400000000 in
/-- The fold at the result buffer is the last stage of the one-operation-at-a-time reading, of the two arguments. -/
theorem after_v237 (V : Valuation τ sig (Elt F)) :
    after ops V (Proc.devRef .tc main_v237)
      = val_main_v237 (F := F) (V (Proc.devRef .tc main_arg0)) (V (Proc.devRef .tc main_arg1)) := by
  rw [after_ops]
  after_results_simp
  rfl

/-- The reference's run: every weakly fair execution terminates with the result at the operations' composed term of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v237)
          = val_main_v237 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v237).trans (after_v237 _), (h c main_arg0).trans (after_arg0 _),
      (h c main_arg1).trans (after_arg1 _)⟩)
    (RunW.run m ρ)

/-- The row of a cell, as the bridge names it, is the row at the cell's coordinates. -/
theorem cell_eq (x : Arr) (j : S16384x7x7.Idx) : Bridge.cell x j = rowAt x (j 0) (j 1) (j 2) := rfl

set_option maxHeartbeats 4000000 in
/-- The result at its one index: the reference's arrangement of the loss. -/
theorem v237_apply (x0 x1 : Arr) (i : S_.Idx) : val_main_v237 (F := Ideal) x0 x1 i = Bridge.refScalar x0 x1 := by
  have e1 : ∀ j : S16384x7x7.Idx, val_main_v205 (F := Ideal) x0 x1 j
      = RowSpec.obj (Bridge.cell x1 j) * RowSpec.xyTerm (Bridge.cell x0 j) (Bridge.cell x1 j) := fun j =>
    (congrArg (val_main_v205 (F := Ideal) x0 x1) (eq_ix3 j)).trans (xy_cell x0 x1 (j 0) (j 1) (j 2))
  have e2 : ∀ j : S16384x7x7.Idx, val_main_v209 (F := Ideal) x0 x1 j
      = RowSpec.obj (Bridge.cell x1 j) * RowSpec.whTerm (Bridge.cell x0 j) (Bridge.cell x1 j) := fun j =>
    (congrArg (val_main_v209 (F := Ideal) x0 x1) (eq_ix3 j)).trans (wh_cell x0 x1 (j 0) (j 1) (j 2))
  have e3 : ∀ j : S16384x7x7.Idx, val_main_v213 (F := Ideal) x0 x1 j
      = RowSpec.obj (Bridge.cell x1 j) * RowSpec.confTerm (Bridge.cell x0 j) (Bridge.cell x1 j) := fun j =>
    (congrArg (val_main_v213 (F := Ideal) x0 x1) (eq_ix3 j)).trans (conf_cell x0 x1 (j 0) (j 1) (j 2))
  have e4 : ∀ j : S16384x7x7.Idx, val_main_v223 (F := Ideal) x0 x1 j
      = RowSpec.noobjTerm (Bridge.cell x0 j) (Bridge.cell x1 j) := fun j =>
    (congrArg (val_main_v223 (F := Ideal) x0 x1) (eq_ix3 j)).trans (noobj_cell x0 x1 (j 0) (j 1) (j 2))
  have e5 : ∀ j : S16384x7x7.Idx, val_main_v231 (F := Ideal) x0 x1 j
      = RowSpec.obj (Bridge.cell x1 j) * RowSpec.classTerm (Bridge.cell x0 j) (Bridge.cell x1 j) := fun j =>
    (congrArg (val_main_v231 (F := Ideal) x0 x1) (eq_ix3 j)).trans (class_cell x0 x1 (j 0) (j 1) (j 2))
  simp only [
    val_main_v207_apply, val_main_v211_apply, val_main_v225_apply, val_main_v233_apply, val_main_v234_apply,
    val_main_v235_apply, val_main_v236_apply, val_main_v237_apply, val_main_v206_apply, val_main_v210_apply,
    val_main_v214_apply, val_main_v224_apply, val_main_v232_apply, val_main_cst_26_apply, val_main_cst_27_apply,
    val_main_cst_28_apply, val_main_cst_29_apply, val_main_cst_30_apply, val_main_cst_31_apply,
    val_main_cst_32_apply, val_main_cst_34_apply, val_main_cst_35_apply,
    Ideal.hostDivf_def, Ideal.ofBits_def, Ideal.mulf_def, Ideal.addf_def, LossConsts.zero_word_add, e1, e2, e3, e4, e5]
  rfl

end Cert.ReferenceIdeal.Final

end
-- ==== Proof.lean ====
/-
  The YOLO loss summed over a batch of 7×7 grids: the kernel and its reference compute the same number.

  Each grid cell has thirty predictions and thirty labels, and contributes five terms (the responsible box's centre,
  size and confidence errors, the no-object penalty, the class error; module RowSpec). The reference sums each term
  over all `16384 · 49` cells, weights the sums by 5, 5, 1, 1/2, 1, adds them and divides by the batch size. The kernel
  reshapes both arguments to 802816 rows, walks them in 196 blocks of 4096 rows on two cores, applies the weights inside
  each row, adds the rows of a block and the blocks of a core into a one-element accumulator, then adds the two cores'
  totals and divides by the batch size.

  * The kernel's frame, and its idealization's, are the generated frame certificates.
  * The idealization rewrote nothing, so it is trivially the kernel's sanctioned one.
  * The reference's run is written in five stretches (RefRunW) and read back one operation at a time (RefValue, RefCell).
  * The kernel's value is read off its frame run: the accumulator after every step (KernelCases, KernelCell, KernelAcc),
    the result array and the lines after the region (KernelResult).
  * Both results are then the same extended real (Bridge): a cell is a row of the reshaped arguments, sums regroup, and a
    nonnegative finite weight goes inside a sum (SumLaw) — true on all of the extended reals, so the precondition that
    the inputs be finite is never used.
-/
import proofs.«181994_j63677185130639_2_alg».proof.Defs
import proofs.«181994_j63677185130639_2_alg».proof.Proof.Gen.Kernel
import proofs.«181994_j63677185130639_2_alg».proof.Proof.Gen.Kernel.Skeleton
import proofs.«181994_j63677185130639_2_alg».proof.Proof.Gen.Kernel.Launch
import proofs.«181994_j63677185130639_2_alg».proof.Proof.Gen.Kernel.Points
import proofs.«181994_j63677185130639_2_alg».proof.Proof.Gen.Kernel.Frame
import proofs.«181994_j63677185130639_2_alg».proof.Proof.Gen.KernelIdeal
import proofs.«181994_j63677185130639_2_alg».proof.Proof.Gen.KernelIdeal.Skeleton
import proofs.«181994_j63677185130639_2_alg».proof.Proof.Gen.KernelIdeal.Launch
import proofs.«181994_j63677185130639_2_alg».proof.Proof.Gen.KernelIdeal.Points
import proofs.«181994_j63677185130639_2_alg».proof.Proof.Gen.KernelIdeal.Frame
import proofs.«181994_j63677185130639_2_alg».proof.Proof.Gen.ReferenceIdeal
import proofs.«181994_j63677185130639_2_alg».proof.Proof.Gen.Pre_finite_inputs
import proofs.«181994_j63677185130639_2_alg».proof.Proof.KernelResult
import proofs.«181994_j63677185130639_2_alg».proof.Proof.RefValue
import proofs.«181994_j63677185130639_2_alg».proof.Proof.Bridge
import Idealize.ShloMosaic.Adequacy
import Idealize.ShloMosaic.Init

noncomputable section

namespace Cert.Proof

open Idealize.ShloMosaic Idealize.SL.Sem

/-- The idealized kernel's result at its one index is the kernel's arrangement of the loss of the two arguments. -/
theorem kernel_scalar (m : (ℓ : Loc Cert.KernelIdeal.nD Cert.KernelIdeal.τ Cert.KernelIdeal.sig) → Buf (Elt Ideal) ℓ)
    (c : Dev Cert.KernelIdeal.nD) (i : Cert.KernelIdeal.S_.Idx) :
    Cert.KernelIdeal.Result.resultWord m c i
      = Cert.Bridge.kernelScalar
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          Cert.KernelIdeal.Facts₀.shapeCasts_S16384x7x7x30_S802816x30 := by
  rw [Cert.KernelIdeal.Result.resultWord_apply, Cert.KernelIdeal.Result.V_v0, Cert.KernelIdeal.Result.V_v1]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Final.run (F := Ideal) m ρ)

/-- From memories that agree on the arguments both idealized programs end at the same number. -/
theorem algebraic : Cert.algebraic_KernelIdeal_ReferenceIdeal := by
  intro m ρ m' ρ' _ hagree
  refine ⟨fun c => Cert.KernelIdeal.Result.resultWord m c, Cert.KernelIdeal.Result.run m ρ, ?_⟩
  refine (θ_run Cert.ReferenceIdeal.defs _ _).mono (fun _ h c => ⟨(h c).1.trans ?_, (h c).2⟩)
    (Cert.ReferenceIdeal.Final.run (F := Ideal) m' ρ')
  rw [(hagree c).1, (hagree c).2]
  funext i
  exact (Cert.ReferenceIdeal.Final.v237_apply _ _ i).trans
    ((Cert.Bridge.kernel_eq_ref _ _ Cert.KernelIdeal.Facts₀.shapeCasts_S16384x7x7x30_S802816x30).symm.trans
      (kernel_scalar m c i).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
